-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S32x128 : Shape := ⟨2, ![32, 128]⟩
abbrev S32 : Shape := ⟨1, ![32]⟩
abbrev S16x32 : Shape := ⟨2, ![16, 32]⟩
abbrev S16 : Shape := ⟨1, ![16]⟩
abbrev S32x16 : Shape := ⟨2, ![32, 16]⟩
abbrev S32x8 : Shape := ⟨2, ![32, 8]⟩
abbrev S1x8 : Shape := ⟨2, ![1, 8]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S32x16 : S_.BroadcastsInDim S32x16 (![] : Fin 0 → Fin S32x16.rank)
  reducesTo_S32x16_S_d0_1 : S32x16.ReducesTo [0, 1] S_
  bcast_S_S32x8 : S_.BroadcastsInDim S32x8 (![] : Fin 0 → Fin S32x8.rank)
  reducesTo_S32x8_S_d0_1 : S32x8.ReducesTo [0, 1] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S32 .f32) (main_arg9 : FVec F S32 .f32) (main_arg10 : FVec F S1x8 .f32) (main_arg11 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S1x8 .f32 := Host.absf main_arg10
  let main_cst_16 : FVec F S_ .f32 := constant S_ .f32 0x7F800000#32
  let main_v45 : FVec F S1x8 .f32 := broadcastInDim S1x8 ![] bcast_S_S1x8 main_cst_16
  let main_v46 : IVec S1x8 1 := cmpf .olt main_v44 main_v45
  let main_c_17 : IVec S_ 1 := constantI S_ 1 1#1
  let main_v47 : IVec S_ 1 := (fun x v => Host.reduce IntOp.andi x v reducesTo_S1x8_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S16 .f32) (main_arg6 : FVec F S32x16 .f32) (main_arg7 : FVec F S32x8 .f32) (main_arg8 : FVec F S32 .f32) (main_arg9 : FVec F S32 .f32) (main_arg10 : FVec F S1x8 .f32) (main_arg11 : FVec F S1 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S32x8 .f32 := Host.absf main_arg7
  let main_cst_10 : FVec F S_ .f32 := constant S_ .f32 0x7F800000#32
  let main_v30 : FVec F S32x8 .f32 := broadcastInDim S32x8 ![] bcast_S_S32x8 main_cst_10
  let main_v31 : IVec S32x8 1 := cmpf .olt main_v29 main_v30
  let main_c_11 : IVec S_ 1 := constantI S_ 1 1#1
  let main_v32 : IVec S_ 1 := (fun x v => Host.reduce IntOp.andi x v reducesTo_S32x8_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x3200000 32) (main_arg2 : FVec F S32x128 .f32) (main_arg3 : FVec F S32 .f32) (main_arg4 : FVec F S16x32 .f32) (main_arg5 : FVec F S16 .f32) (main_arg6 : FVec F S32x16 .f32) (main_arg7 : FVec F S32x8 .f32) (main_arg8 : FVec F S32 .f32) (main_arg9 : FVec F S32 .f32) (main_arg10 : FVec F S1x8 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x3200000 : Shape := ⟨2, ![2, 3200000]⟩
abbrev S32x128 : Shape := ⟨2, ![32, 128]⟩
abbrev S32 : Shape := ⟨1, ![32]⟩
abbrev S16x32 : Shape := ⟨2, ![16, 32]⟩
abbrev S16 : Shape := ⟨1, ![16]⟩
abbrev S32x16 : Shape := ⟨2, ![32, 16]⟩
abbrev S32x8 : Shape := ⟨2, ![32, 8]⟩
abbrev S1x8 : Shape := ⟨2, ![1, 8]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S128x32 : Shape := ⟨2, ![128, 32]⟩
abbrev S100000x32 : Shape := ⟨2, ![100000, 32]⟩
abbrev S2000x128 : Shape := ⟨2, ![2000, 128]⟩
abbrev S2000x32 : Shape := ⟨2, ![2000, 32]⟩
abbrev S3300000x32 : Shape := ⟨2, ![3300000, 32]⟩
abbrev S1x32 : Shape := ⟨2, ![1, 32]⟩
abbrev S100000x16 : Shape := ⟨2, ![100000, 16]⟩
abbrev S2000x16 : Shape := ⟨2, ![2000, 16]⟩
abbrev S3300000x16 : Shape := ⟨2, ![3300000, 16]⟩
abbrev S8x1 : Shape := ⟨2, ![8, 1]⟩
abbrev S1x16 : Shape := ⟨2, ![1, 16]⟩
abbrev S1x1 : Shape := ⟨2, ![1, 1]⟩
abbrev S100000x1 : Shape := ⟨2, ![100000, 1]⟩
abbrev S2000x1 : Shape := ⟨2, ![2000, 1]⟩
abbrev S2000x8 : Shape := ⟨2, ![2000, 8]⟩

abbrev nBuf : Space → Nat
  | .hbm => 98
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S32x128, .f32⟩
  | .hbm, ⟨3, _⟩ => ⟨S32, .f32⟩
  | .hbm, ⟨4, _⟩ => ⟨S16x32, .f32⟩
  | .hbm, ⟨5, _⟩ => ⟨S16, .f32⟩
  | .hbm, ⟨6, _⟩ => ⟨S32x16, .f32⟩
  | .hbm, ⟨7, _⟩ => ⟨S32x8, .f32⟩
  | .hbm, ⟨8, _⟩ => ⟨S32, .f32⟩
  | .hbm, ⟨9, _⟩ => ⟨S32, .f32⟩
  | .hbm, ⟨10, _⟩ => ⟨S1x8, .f32⟩
  | .hbm, ⟨11, _⟩ => ⟨S1, .f32⟩
  | .hbm, ⟨12, _⟩ => ⟨S1x3200000, .i32⟩
  | .hbm, ⟨13, _⟩ => ⟨S3200000, .i32⟩
  | .hbm, ⟨14, _⟩ => ⟨S100000, .i32⟩
  | .hbm, ⟨15, _⟩ => ⟨S3300000, .i32⟩
  | .hbm, ⟨16, _⟩ => ⟨S1x3200000, .i32⟩
  | .hbm, ⟨17, _⟩ => ⟨S3200000, .i32⟩
  | .hbm, ⟨18, _⟩ => ⟨S100000, .i32⟩
  | .hbm, ⟨19, _⟩ => ⟨S3300000, .i32⟩
  | .hbm, ⟨20, _⟩ => ⟨S_, .f32⟩
  | .hbm, ⟨21, _⟩ => ⟨S3300000, .f32⟩
  | .hbm, ⟨22, _⟩ => ⟨S_, .f32⟩
  | .hbm, ⟨23, _⟩ => ⟨S100000, .f32⟩
  | .hbm, ⟨24, _⟩ => ⟨S3300000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S128x32, .f32⟩
  | .hbm, ⟨54, _⟩ => ⟨S100000x32, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x32, .f32⟩
  | .hbm, ⟨64, _⟩ => ⟨S3300000x1, .f32⟩
  | .hbm, ⟨65, _⟩ => ⟨S3300000x32, .f32⟩
  | .hbm, ⟨66, _⟩ => ⟨S3300000x32, .f32⟩
  | .hbm, ⟨67, _⟩ => ⟨S_, .f32⟩
  | .hbm, ⟨68, _⟩ => ⟨S100000x32, .f32⟩
  | .hbm, ⟨69, _⟩ => ⟨S3300000x1, .i32⟩
  | .hbm, ⟨70, _⟩ => ⟨S100000x32, .f32⟩
  | .hbm, ⟨71, _⟩ => ⟨S32x16, .f32⟩
  | .hbm, ⟨72, _⟩ => ⟨S1x32, .f32⟩
  | .hbm, ⟨73, _⟩ => ⟨S100000x16, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x16, .f32⟩
  | .hbm, ⟨83, _⟩ => ⟨S3300000x1, .f32⟩
  | .hbm, ⟨84, _⟩ => ⟨S3300000x16, .f32⟩
  | .hbm, ⟨85, _⟩ => ⟨S3300000x16, .f32⟩
  | .hbm, ⟨86, _⟩ => ⟨S_, .f32⟩
  | .hbm, ⟨87, _⟩ => ⟨S100000x16, .f32⟩
  | .hbm, ⟨88, _⟩ => ⟨S3300000x1, .i32⟩
  | .hbm, ⟨89, _⟩ => ⟨S100000x16, .f32⟩
  | .hbm, ⟨90, _⟩ => ⟨S16x32, .f32⟩
  | .hbm, ⟨91, _⟩ => ⟨S8x1, .f32⟩
  | .hbm, ⟨92, _⟩ => ⟨S1x16, .f32⟩
  | .hbm, ⟨93, _⟩ => ⟨S1x32, .f32⟩
  | .hbm, ⟨94, _⟩ => ⟨S1x32, .f32⟩
  | .hbm, ⟨95, _⟩ => ⟨S1x1, .f32⟩
  | .hbm, ⟨96, _⟩ => ⟨S100000x1, .f32⟩
  | .hbm, ⟨97, _⟩ => ⟨S100000, .f32⟩
  | .local _ .vmem, ⟨0, _⟩ => ⟨S2000x128, .f32⟩
  | .local _ .vmem, ⟨1, _⟩ => ⟨S2000x128, .f32⟩
  | .local _ .vmem, ⟨2, _⟩ => ⟨S128x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S1x32, .f32⟩
  | .local _ .vmem, ⟨8, _⟩ => ⟨S32x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S1x16, .f32⟩
  | .local _ .vmem, ⟨14, _⟩ => ⟨S16x32, .f32⟩
  | .local _ .vmem, ⟨15, _⟩ => ⟨S1x32, .f32⟩
  | .local _ .vmem, ⟨16, _⟩ => ⟨S1x32, .f32⟩
  | .local _ .vmem, ⟨17, _⟩ => ⟨S8x1, .f32⟩
  | .local _ .vmem, ⟨18, _⟩ => ⟨S1x1, .f32⟩
  | .local _ .vmem, ⟨19, _⟩ => ⟨S2000x1, .f32⟩
  | .local _ .vmem, ⟨20, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  transposes_S32x128_S128x32_1_0 : S32x128.Transposes [1, 0] S128x32
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S2000x32_S2000x32_0_0 : ∀ a, (![0, 0] : Fin 2 → Nat) a + S2000x32.size a ≤ S2000x32.size a
  h_S2000x32 : 0 < S2000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  transposes_S16x32_S32x16_1_0 : S16x32.Transposes [1, 0] S32x16
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  transposes_S32x16_S16x32_1_0 : S32x16.Transposes [1, 0] S16x32
  transposes_S1x8_S8x1_1_0 : S1x8.Transposes [1, 0] S8x1
  shapeCasts_S16_S1x16 : S16.ShapeCasts S1x16
  shapeCasts_S1_S1x1 : S1.ShapeCasts S1x1
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x32_S16x32_0_0 : ∀ a, (![0, 0] : Fin 2 → Nat) a + S16x32.size a ≤ S16x32.size a
  h_S16x32 : 0 < S16x32.numel
  shapeCasts_S16x32_S16x32 : S16x32.ShapeCasts S16x32
  slices_S2000x32_o0_0_S2000x8 : S2000x32.Slices ![0, 0] S2000x8
  slices_S2000x32_o0_16_S2000x8 : S2000x32.Slices ![0, 16] S2000x8
  slices_S2000x32_o0_24_S2000x8 : S2000x32.Slices ![0, 24] S2000x8
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x128_S128x32_S2000x32_1_0_0_1_n_n_wf : DotDims.WF S2000x128 S128x32 S2000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S2000x32_S32x16_S2000x16_1_0_0_1_n_n_wf : DotDims.WF S2000x32 S32x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x32_S2000x32_1_0_0_1_n_n_wf : DotDims.WF S2000x16 S16x32 S2000x32 [1] [0] [0] [1] [] []
  dot_S2000x8_S8x1_S2000x1_1_0_0_1_n_n_wf : DotDims.WF S2000x8 S8x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x16.size a ≤ S100000x16.size a
  hwx1_3 : ∀ i : grid1.Coords, EltTy.bits .f32 = 32 ∨ (Rect.block (s := S100000x16) S2000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x32.size a ≤ S16x32.size a
  hwx2_2 : ∀ i : grid2.Coords, EltTy.bits .f32 = 32 ∨ (Rect.block (s := S16x32) S16x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x1.size a ≤ S8x1.size a
  hwx2_5 : ∀ i : grid2.Coords, EltTy.bits .f32 = 32 ∨ (Rect.block (s := S8x1) S8x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x1.size a ≤ S100000x1.size a
  hwx2_7 : ∀ i : grid2.Coords, EltTy.bits .f32 = 32 ∨ (Rect.block (s := S100000x1) S2000x1.size (cc2_transform_7 i) (hinb2_7 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x32_S2000x32_1_0_0_1_n_n : DotDims S2000x16 S16x32 S2000x32 where
  lhsContracting := [1]
  rhsContracting := [0]
  lhsNonContracting := [0]
  rhsNonContracting := [1]
  lhsBatch := []
  rhsBatch := []
  wf := dot_S2000x16_S16x32_S2000x32_1_0_0_1_n_n_wf
def dot_S2000x8_S8x1_S2000x1_1_0_0_1_n_n : DotDims S2000x8 S8x1 S2000x1 where
  lhsContracting := [1]
  rhsContracting := [0]
  lhsNonContracting := [0]
  rhsNonContracting := [1]
  lhsBatch := []
  rhsBatch := []
  wf := dot_S2000x8_S8x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S16x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S8x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v67) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v68) S2000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S32x128 : Shape := ⟨2, ![32, 128]⟩
abbrev S32 : Shape := ⟨1, ![32]⟩
abbrev S16x32 : Shape := ⟨2, ![16, 32]⟩
abbrev S16 : Shape := ⟨1, ![16]⟩
abbrev S32x16 : Shape := ⟨2, ![32, 16]⟩
abbrev S32x8 : Shape := ⟨2, ![32, 8]⟩
abbrev S1x8 : Shape := ⟨2, ![1, 8]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S128x32 : Shape := ⟨2, ![128, 32]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩
abbrev S100000x8 : Shape := ⟨2, ![100000, 8]⟩
abbrev S8x1 : Shape := ⟨2, ![8, 1]⟩
abbrev S100000x1 : Shape := ⟨2, ![100000, 1]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x3200000, .i32⟩
  | 2 => ⟨S32x128, .f32⟩
  | 3 => ⟨S32, .f32⟩
  | 4 => ⟨S16x32, .f32⟩
  | 5 => ⟨S16, .f32⟩
  | 6 => ⟨S32x16, .f32⟩
  | 7 => ⟨S32x8, .f32⟩
  | 8 => ⟨S32, .f32⟩
  | 9 => ⟨S32, .f32⟩
  | 10 => ⟨S1x8, .f32⟩
  | 11 => ⟨S1, .f32⟩
  | 12 => ⟨S1x3200000, .i32⟩
  | 13 => ⟨S3200000, .i32⟩
  | 14 => ⟨S100000, .i32⟩
  | 15 => ⟨S3300000, .i32⟩
  | 16 => ⟨S1x3200000, .i32⟩
  | 17 => ⟨S3200000, .i32⟩
  | 18 => ⟨S100000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S128x32, .f32⟩
  | 54 => ⟨S100000x32, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x32, .f32⟩
  | 64 => ⟨S3300000x1, .f32⟩
  | 65 => ⟨S3300000x32, .f32⟩
  | 66 => ⟨S3300000x32, .f32⟩
  | 67 => ⟨S_, .f32⟩
  | 68 => ⟨S100000x32, .f32⟩
  | 69 => ⟨S3300000x1, .i32⟩
  | 70 => ⟨S100000x32, .f32⟩
  | 71 => ⟨S1x32, .f32⟩
  | 72 => ⟨S100000x32, .f32⟩
  | 73 => ⟨S100000x32, .f32⟩
  | 74 => ⟨S_, .f32⟩
  | 75 => ⟨S100000x32, .f32⟩
  | 76 => ⟨S100000x32, .f32⟩
  | 77 => ⟨S32x16, .f32⟩
  | 78 => ⟨S100000x16, .f32⟩
  | 79 => ⟨S_, .i32⟩
  | 80 => ⟨S3300000, .i32⟩
  | 81 => ⟨S3300000, .i1⟩
  | 82 => ⟨S_, .i32⟩
  | 83 => ⟨S3300000, .i32⟩
  | 84 => ⟨S3300000, .i32⟩
  | 85 => ⟨S3300000, .i32⟩
  | 86 => ⟨S3300000x1, .i32⟩
  | 87 => ⟨S3300000x16, .f32⟩
  | 88 => ⟨S3300000x1, .f32⟩
  | 89 => ⟨S3300000x16, .f32⟩
  | 90 => ⟨S3300000x16, .f32⟩
  | 91 => ⟨S_, .f32⟩
  | 92 => ⟨S100000x16, .f32⟩
  | 93 => ⟨S3300000x1, .i32⟩
  | 94 => ⟨S100000x16, .f32⟩
  | 95 => ⟨S1x16, .f32⟩
  | 96 => ⟨S100000x16, .f32⟩
  | 97 => ⟨S100000x16, .f32⟩
  | 98 => ⟨S_, .f32⟩
  | 99 => ⟨S100000x16, .f32⟩
  | 100 => ⟨S100000x16, .f32⟩
  | 101 => ⟨S16x32, .f32⟩
  | 102 => ⟨S100000x32, .f32⟩
  | 103 => ⟨S1x32, .f32⟩
  | 104 => ⟨S100000x32, .f32⟩
  | 105 => ⟨S100000x32, .f32⟩
  | 106 => ⟨S1x32, .f32⟩
  | 107 => ⟨S100000x32, .f32⟩
  | 108 => ⟨S100000x32, .f32⟩
  | 109 => ⟨S100000x8, .f32⟩
  | 110 => ⟨S100000x8, .f32⟩
  | 111 => ⟨S100000x8, .f32⟩
  | 112 => ⟨S100000x8, .f32⟩
  | 113 => ⟨S100000x8, .f32⟩
  | 114 => ⟨S100000x8, .f32⟩
  | 115 => ⟨S_, .f32⟩
  | 116 => ⟨S100000x8, .f32⟩
  | 117 => ⟨S100000x8, .f32⟩
  | 118 => ⟨S_, .f32⟩
  | 119 => ⟨S100000x8, .f32⟩
  | 120 => ⟨S100000x8, .f32⟩
  | 121 => ⟨S100000x8, .f32⟩
  | 122 => ⟨S100000x8, .f32⟩
  | 123 => ⟨S100000x8, .f32⟩
  | 124 => ⟨S100000x8, .f32⟩
  | 125 => ⟨S_, .f32⟩
  | 126 => ⟨S100000x8, .f32⟩
  | 127 => ⟨S100000x8, .f32⟩
  | _ => ⟨S100000x128, .f32⟩

abbrev hbmTy0_1 (i : Nat) : BufTy := match i % 128 with
  | 0 => ⟨S_, .f32⟩
  | 1 => ⟨S100000x8, .f32⟩
  | 2 => ⟨S100000x8, .f32⟩
  | 3 => ⟨S100000x8, .f32⟩
  | 4 => ⟨S100000x8, .f32⟩
  | 5 => ⟨S8x1, .f32⟩
  | 6 => ⟨S100000x1, .f32⟩
  | 7 => ⟨S1x1, .f32⟩
  | 8 => ⟨S100000x1, .f32⟩
  | 9 => ⟨S100000x1, .f32⟩
  | 10 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_c_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call2_cst : Ref sig .tc := ⟨.hbm, 98, rfl⟩
abbrev main_call2_v0 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_12 : Ref sig .tc := ⟨.hbm, 115, rfl⟩
abbrev main_v83 : Ref sig .tc := ⟨.hbm, 116, rfl⟩
abbrev main_v84 : Ref sig .tc := ⟨.hbm, 117, rfl⟩
abbrev main_cst_13 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_14 : Ref sig .tc := ⟨.hbm, 125, rfl⟩
abbrev main_v91 : Ref sig .tc := ⟨.hbm, 126, rfl⟩
abbrev main_v92 : Ref sig .tc := ⟨.hbm, 127, rfl⟩
abbrev main_cst_15 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  transposes_S32x128_S128x32_1_0 : S32x128.Transposes [1, 0] S128x32
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S16x32_S32x16_1_0 : S16x32.Transposes [1, 0] S32x16
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  transposes_S32x16_S16x32_1_0 : S32x16.Transposes [1, 0] S16x32
  slices_S100000x32_S100000x8_0_0 : S100000x32.Slices ![0, 0] S100000x8
  slices_S100000x32_S100000x8_0_8 : S100000x32.Slices ![0, 8] S100000x8
  slices_S100000x32_S100000x8_0_16 : S100000x32.Slices ![0, 16] S100000x8
  slices_S100000x32_S100000x8_0_24 : S100000x32.Slices ![0, 24] S100000x8
  bcast_S_S100000x8 : S_.BroadcastsInDim S100000x8 (![] : Fin 0 → Fin S100000x8.rank)
  transposes_S1x8_S8x1_1_0 : S1x8.Transposes [1, 0] S8x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x32_S100000x32_1_0_0_1_n_n_wf : DotDims.WF S100000x16 S16x32 S100000x32 [1] [0] [0] [1] [] []
  dot_S100000x8_S8x1_S100000x1_1_0_0_1_n_n_wf : DotDims.WF S100000x8 S8x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S100000x8_S8x1_S100000x1_1_0_0_1_n_n : DotDims S100000x8 S8x1 S100000x1 where
  lhsContracting := [1]
  rhsContracting := [0]
  lhsNonContracting := [0]
  rhsNonContracting := [1]
  lhsBatch := []
  rhsBatch := []
  wf := dot_S100000x8_S8x1_S100000x1_1_0_0_1_n_n_wf

class Facts : Prop extends Facts₀ where

variable [Facts]
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«173190_j27169963114973_1_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibRowSteps.lean ====
/-
  Reusable definitions and lemmas: three dense steps of a graph network on whole arrays, and their row locality.

  The three dense steps of a two-layer graph convolution, each as one function of whole arrays over the extended
  reals, entry by entry, and the fact the proof rests on: every step is ROW-LOCAL. Row p of the result reads row p
  of its first operand and nothing else of it (the second operand — a weight matrix, or a bias row — is read whole),
  so a block of consecutive rows of the result is the same step applied to that block of rows.

    dense x w      [p, q] = Σ_k x[p, k] · w[k, q]                              (a feature transform)
    biasClamp a b  [p, q] = max (a[p, q] + b[0, q]) 0                          (bias, then clamp at zero)
    logSoftmax a b [p, q] = v[p, q] − M_p − log Σ_j exp (v[p, j] − M_p),       v = a + b[0, ·],  M_p = max_j v[p, j]

  The row maximum is the fold of max from −∞ and the two float literals stay the words the programs print (zero and
  −∞ in f32): the same word stands on both sides of every comparison, so neither is ever evaluated. Generic in the
  extents.
-/
import Idealize.ShloMosaic.PureOps.Ideal
import Idealize.ShloMosaic.Lib.ValueIdx

noncomputable section

namespace Cert.Gcn

open Idealize.ShloMosaic Idealize.ShloMosaic.ValueIdx

/-- An [a, b] array over the extended reals. -/
abbrev Mat (a b : ℕ) : Type := (⟨2, ![a, b]⟩ : Shape).Idx → EReal

variable {n n' k c : ℕ}

/-- The f32 word of zero and of −∞ as extended reals (kept as words). -/
abbrev zeroW : EReal := Ideal.ofBits .f32 0x00000000#32
abbrev negInfW : EReal := Ideal.ofBits .f32 0xFF800000#32

/-- Row p of a matrix times a matrix, at column q. -/
def denseAt (x : Mat n k) (w : Mat k c) (p : Fin n) (q : Fin c) : EReal := ∑ j : Fin k, x (ix2 p j) * w (ix2 j q)

/-- The matrix product, entry by entry. -/
def dense (x : Mat n k) (w : Mat k c) : Mat n c := fun i => denseAt x w (i 0) (i 1)

theorem dense_apply (x : Mat n k) (w : Mat k c) (p : Fin n) (q : Fin c) :
    dense x w (ix2 p q) = ∑ j : Fin k, x (ix2 p j) * w (ix2 j q) := rfl

/-- Bias row added to every row, then the clamp at zero. -/
def biasClampAt (a : Mat n c) (b : Mat 1 c) (p : Fin n) (q : Fin c) : EReal := max (a (ix2 p q) + b (ix2 0 q)) zeroW

def biasClamp (a : Mat n c) (b : Mat 1 c) : Mat n c := fun i => biasClampAt a b (i 0) (i 1)

theorem biasClamp_apply (a : Mat n c) (b : Mat 1 c) (p : Fin n) (q : Fin c) :
    biasClamp a b (ix2 p q) = max (a (ix2 p q) + b (ix2 0 q)) zeroW := rfl

/-- Row p of a + b, as a function of the column. -/
def shifted (a : Mat n c) (b : Mat 1 c) (p : Fin n) : Fin c → EReal := fun j => a (ix2 p j) + b (ix2 0 j)

/-- The maximum of a row, folded from −∞. -/
def rowMax (v : Fin c → EReal) : EReal := (Finset.univ : Finset (Fin c)).fold max negInfW v

/-- The log-softmax of a row v at column q. -/
def logSoftmaxRow (v : Fin c → EReal) (q : Fin c) : EReal :=
  (v q - rowMax v) - Ideal.log (∑ j : Fin c, Ideal.exp (v j - rowMax v))

def logSoftmax (a : Mat n c) (b : Mat 1 c) : Mat n c := fun i => logSoftmaxRow (shifted a b (i 0)) (i 1)

theorem logSoftmax_apply (a : Mat n c) (b : Mat 1 c) (p : Fin n) (q : Fin c) :
    logSoftmax a b (ix2 p q) = logSoftmaxRow (shifted a b p) q := rfl

/-! ## Row locality: a row of the result only reads that row of the first operand -/

theorem dense_row_congr (x : Mat n k) (x' : Mat n' k) (w : Mat k c) (p : Fin n) (p' : Fin n')
    (h : ∀ j : Fin k, x (ix2 p j) = x' (ix2 p' j)) (q : Fin c) :
    dense x w (ix2 p q) = dense x' w (ix2 p' q) := by
  rw [dense_apply, dense_apply]
  exact Finset.sum_congr rfl fun j _ => by rw [h j]

theorem biasClamp_row_congr (a : Mat n c) (a' : Mat n' c) (b : Mat 1 c) (p : Fin n) (p' : Fin n')
    (h : ∀ j : Fin c, a (ix2 p j) = a' (ix2 p' j)) (q : Fin c) :
    biasClamp a b (ix2 p q) = biasClamp a' b (ix2 p' q) := by
  rw [biasClamp_apply, biasClamp_apply, h q]

theorem logSoftmax_row_congr (a : Mat n c) (a' : Mat n' c) (b : Mat 1 c) (p : Fin n) (p' : Fin n')
    (h : ∀ j : Fin c, a (ix2 p j) = a' (ix2 p' j)) (q : Fin c) :
    logSoftmax a b (ix2 p q) = logSoftmax a' b (ix2 p' q) := by
  rw [logSoftmax_apply, logSoftmax_apply]
  have e : shifted a b p = shifted a' b p' := funext fun j => by unfold shifted; rw [h j]
  rw [e]

/-! ## The same, between a block of rows and the whole array: the entry i' of the array and the entry j of the block
    agree as soon as the operands agree on what that entry reads -/

theorem dense_transfer (xb : Mat n' k) (wb : Mat k c) (x : Mat n k) (w : Mat k c)
    (j : (⟨2, ![n', c]⟩ : Shape).Idx) (i : (⟨2, ![n, c]⟩ : Shape).Idx)
    (hx : ∀ l : Fin k, xb (ix2 (j 0) l) = x (ix2 (i 0) l)) (hw : ∀ l : Fin k, wb (ix2 l (j 1)) = w (ix2 l (i 1))) :
    dense xb wb j = dense x w i := by
  unfold dense denseAt
  exact Finset.sum_congr rfl fun l _ => by rw [hx l, hw l]

theorem biasClamp_transfer (ab : Mat n' c) (bb : Mat 1 c) (a : Mat n c) (b : Mat 1 c)
    (j : (⟨2, ![n', c]⟩ : Shape).Idx) (i : (⟨2, ![n, c]⟩ : Shape).Idx)
    (ha : ab (ix2 (j 0) (j 1)) = a (ix2 (i 0) (i 1))) (hb : bb (ix2 0 (j 1)) = b (ix2 0 (i 1))) :
    biasClamp ab bb j = biasClamp a b i := by
  unfold biasClamp biasClampAt
  rw [ha, hb]

theorem logSoftmax_transfer (ab : Mat n' c) (bb : Mat 1 c) (a : Mat n c) (b : Mat 1 c)
    (j : (⟨2, ![n', c]⟩ : Shape).Idx) (i : (⟨2, ![n, c]⟩ : Shape).Idx)
    (ha : ∀ l : Fin c, ab (ix2 (j 0) l) = a (ix2 (i 0) l)) (hb : ∀ l : Fin c, bb (ix2 0 l) = b (ix2 0 l))
    (hq : (j 1 : Fin c) = i 1) :
    logSoftmax ab bb j = logSoftmax a b i := by
  unfold logSoftmax
  have e : shifted ab bb (j 0) = shifted a b (i 0) := funext fun l => by unfold shifted; rw [ha l, hb l]
  rw [e, hq]

end Cert.Gcn

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.LibLogistic.lean ====
/-
  A reusable lemma: the logistic function written two ways, on the extended reals, and the f32 words of 0, 1 and 0.5.

  One program computes the logistic function as 1 / (1 + e^(-v)); the other as 1/2 · tanh (v/2) + 1/2.  Over the
  reals these are one function: with a = e^(v/2),  tanh (v/2) = (a - 1/a) / (a + 1/a),  so
  1/2 · tanh (v/2) + 1/2 = a / (a + 1/a) = 1 / (1 + 1/a²) = 1 / (1 + e^(-v)).
  Over the extended reals the identity survives at both infinities: at -∞ both sides are 0 (tanh (-∞) = -1,
  e^(+∞) = +∞, 1/∞ = 0) and at +∞ both are 1.  So the identity needs no finiteness of v.
-/
import Idealize.ShloMosaic.PureOps.Ideal

noncomputable section

namespace Cert.Logistic

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- The quotient 1 / (1 + e^(-v)) with the literal 1.0 in both places is the logistic function. -/
theorem one_div_one_add_exp_neg (v : EReal) :
    Ideal.div (Ideal.ofBits .f32 0x3F800000#32) (Ideal.ofBits .f32 0x3F800000#32 + Ideal.exp (-v)) = Ideal.logistic v := by
  rw [ofBits_one]; rfl

/-- Over the reals: 1/2 · tanh (r/2) + 1/2 = 1 / (1 + e^(-r)). -/
theorem real_half_tanh (r : ℝ) : (1 / 2 : ℝ) * Real.tanh ((1 / 2) * r) + 1 / 2 = (1 + Real.exp (-r))⁻¹ := by
  have hp : 0 < Real.exp (1 / 2 * r) := Real.exp_pos _
  have hn : Real.exp (-(1 / 2 * r)) = (Real.exp (1 / 2 * r))⁻¹ := Real.exp_neg _
  have h1 : Real.exp (-r) = (Real.exp (1 / 2 * r))⁻¹ * (Real.exp (1 / 2 * r))⁻¹ := by
    rw [← hn, ← Real.exp_add]; congr 1; ring
  rw [Real.tanh_eq_sinh_div_cosh, Real.sinh_eq, Real.cosh_eq, hn, h1]
  field_simp
  ring

/-- Over the extended reals, with the literal 0.5 in all three places: 0.5 · tanh (0.5 · v) + 0.5 is the logistic
    function of v, infinities included. -/
theorem half_tanh_half (v : EReal) :
    Ideal.ofBits .f32 0x3F000000#32 * Ideal.tanh (Ideal.ofBits .f32 0x3F000000#32 * v) + Ideal.ofBits .f32 0x3F000000#32
      = Ideal.logistic v := by
  rw [ofBits_half]
  have hneg : (-1 : EReal) = ((-1 : ℝ) : EReal) := by norm_num
  have hone : (1 : EReal) = ((1 : ℝ) : EReal) := rfl
  induction v using EReal.rec with
  | bot =>
    rw [EReal.coe_mul_bot_of_pos (by norm_num), Ideal.tanh_bot, Ideal.logistic_bot, hneg, ← EReal.coe_mul, ← EReal.coe_add]
    norm_num
  | coe r =>
    rw [← EReal.coe_mul, Ideal.tanh_coe, ← EReal.coe_mul, ← EReal.coe_add, Ideal.logistic_coe, real_half_tanh]
  | top =>
    rw [EReal.coe_mul_top_of_pos (by norm_num), Ideal.tanh_top, Ideal.logistic_top, hone, ← EReal.coe_mul, ← EReal.coe_add]
    norm_num

end Cert.Logistic

end
-- ==== Proof.LstmReadout.lean ====
/-
  One LSTM step from the zero state followed by a linear readout, as a function of whole arrays over the extended reals.

  For a node p with layer-two features a[p, ·] (16 of them), the network computes

      h[p, l]   = max (a[p, l] + b2[0, l]) 0                                   (bias, clamp at zero)
      G[p, j]   = (Σ_l h[p, l] · Wih[l, j] + bih[0, j]) + bhh[0, j]             (32 gate pre-activations)
      c[p, k]   = σ(G[p, k]) · tanh (G[p, 16 + k])                              (input gate × candidate; the old cell is zero)
      hh[p, k]  = σ(G[p, 24 + k]) · tanh (c[p, k])                              (output gate × squashed cell), k < 8
      out[p, 0] = Σ_k hh[p, k] · Wout[k, 0] + bout[0, 0].

  The forget gate (columns 8 … 15 of G) multiplies the zero cell state and the recurrent weights multiply the zero hidden
  state, so neither appears.  σ is the logistic function, total on the extended reals.  Row p of the result reads row p
  of a and nothing else of it: the step is row-local.
-/
import Idealize.ShloMosaic.PureOps.Ideal
import Idealize.ShloMosaic.Lib.ValueIdx
import proofs.«173190_j27169963114973_1_alg».proof.Proof.LibRowSteps

noncomputable section

namespace Cert.LstmReadout

open Idealize.ShloMosaic Idealize.ShloMosaic.ValueIdx Cert.Gcn

variable {n n' : ℕ}

/-- The 32 gate pre-activations of one node from its 32 projected features: both bias rows added, in this order. -/
def gatesRow (g : Fin 32 → EReal) (bi bh : Mat 1 32) : Fin 32 → EReal := fun j => (g j + bi (ix2 0 j)) + bh (ix2 0 j)

/-- Hidden unit k of the step from the zero state: output gate times the squashed new cell. -/
def hiddenRow (G : Fin 32 → EReal) (k : Fin 8) : EReal :=
  Ideal.logistic (G ⟨24 + k.val, by omega⟩)
    * Ideal.tanh (Ideal.logistic (G ⟨0 + k.val, by omega⟩) * Ideal.tanh (G ⟨16 + k.val, by omega⟩))

/-- The linear readout of the eight hidden units. -/
def readoutRow (G : Fin 32 → EReal) (wo : Mat 8 1) (bo : Mat 1 1) (u : Fin 1) : EReal :=
  (∑ k : Fin 8, hiddenRow G k * wo (ix2 k u)) + bo (ix2 0 u)

/-- The projected features of node p: row p of max (a + b2) 0 times Wih. -/
def projRow (a : Mat n 16) (b2 : Mat 1 16) (wih : Mat 16 32) (p : Fin n) : Fin 32 → EReal :=
  fun j => ∑ l : Fin 16, max (a (ix2 p l) + b2 (ix2 0 l)) zeroW * wih (ix2 l j)

/-- The whole last stage, entry by entry. -/
def lstmOut (a : Mat n 16) (b2 : Mat 1 16) (wih : Mat 16 32) (bi bh : Mat 1 32) (wo : Mat 8 1) (bo : Mat 1 1) : Mat n 1 :=
  fun i => readoutRow (gatesRow (projRow a b2 wih (i 0)) bi bh) wo bo (i 1)

theorem lstmOut_apply (a : Mat n 16) (b2 : Mat 1 16) (wih : Mat 16 32) (bi bh : Mat 1 32) (wo : Mat 8 1) (bo : Mat 1 1)
    (p : Fin n) (u : Fin 1) :
    lstmOut a b2 wih bi bh wo bo (ix2 p u) = readoutRow (gatesRow (projRow a b2 wih p) bi bh) wo bo u := rfl

/-- Row locality: the entry j of a block of rows and the entry i of the whole array agree as soon as the block's row is
    the array's row and the column is the same. -/
theorem lstmOut_transfer (ab : Mat n' 16) (a : Mat n 16) (b2 : Mat 1 16) (wih : Mat 16 32) (bi bh : Mat 1 32)
    (wo : Mat 8 1) (bo : Mat 1 1) (j : (⟨2, ![n', 1]⟩ : Shape).Idx) (i : (⟨2, ![n, 1]⟩ : Shape).Idx)
    (ha : ∀ l : Fin 16, ab (ix2 (j 0) l) = a (ix2 (i 0) l)) (hu : (j 1 : Fin 1) = i 1) :
    lstmOut ab b2 wih bi bh wo bo j = lstmOut a b2 wih bi bh wo bo i := by
  unfold lstmOut
  have e : projRow ab b2 wih (j 0) = projRow a b2 wih (i 0) := funext fun q => by
    unfold projRow
    exact Finset.sum_congr rfl fun l _ => by rw [ha l]
  rw [e, hu]

end Cert.LstmReadout

end
-- ==== Proof.RefStages.lean ====
/-
  The reference program's dense stages as the same whole-array functions the kernel's regions compute.

  The reference applies, to its arguments x (node features), the edge list, and the weights,

      h0   = x · W1ᵀ                                   (a host dot_general)
      agg1 = A(h0)                                      (gather rows at the edges' sources, scale, scatter-add at their targets)
      h1   = max (agg1 + b1) 0 · W2ᵀ
      agg2 = A(h1)
      out  = the LSTM step and readout of max (agg2 + b2) 0.

  A — the normalised neighbourhood sum with self-loops — depends on the edge list only through index and scale arrays
  that never meet a float argument; it is kept here as ONE opaque function of the array it aggregates (agg32 for 32
  feature columns, agg16 for 16) and never opened.  The three dense stages are read at an entry: a dot_general as the
  sum over the contracted axis, a bias vector through its two broadcasts, the clamp against the broadcast zero, the
  logistic function spelt 1 / (1 + exp (−v)) with the literal 1.0 twice.
-/
import proofs.«173190_j27169963114973_1_alg».proof.Proof.RefRead
import proofs.«173190_j27169963114973_1_alg».proof.Proof.LibDotNN
import proofs.«173190_j27169963114973_1_alg».proof.Proof.LibRowSteps
import proofs.«173190_j27169963114973_1_alg».proof.Proof.LibBroadcastRows
import proofs.«173190_j27169963114973_1_alg».proof.Proof.LibHostBroadcasts
import proofs.«173190_j27169963114973_1_alg».proof.Proof.LibLogistic
import proofs.«173190_j27169963114973_1_alg».proof.Proof.LstmReadout
import Idealize.ShloMosaic.Lib.ValueLayout

noncomputable section

namespace Cert.RefStages

open Idealize.ShloMosaic Idealize.ShloMosaic.ValueIdx Cert.ReferenceIdeal Cert.ReferenceIdeal.ReadP Cert.Gcn

/-! ## Host spellings read at an entry -/

/-- A matrix plus a bias row repeated down its rows, clamped below by the broadcast zero scalar, at an entry. -/
theorem host_clamp_entry {m c : ℕ} (a : FVec Ideal ⟨2, ![m, c]⟩ .f32) (row : FVec Ideal ⟨2, ![1, c]⟩ .f32)
    (h2 : (⟨2, ![1, c]⟩ : Shape).BroadcastsInDim ⟨2, ![m, c]⟩ ![0, 1])
    (h0 : (⟨0, ![]⟩ : Shape).BroadcastsInDim ⟨2, ![m, c]⟩ ![]) (p : Fin m) (k : Fin c) :
    maximumf (addf a (broadcastInDim ⟨2, ![m, c]⟩ ![0, 1] h2 row))
        (broadcastInDim ⟨2, ![m, c]⟩ ![] h0 (constant (F := Ideal) ⟨0, ![]⟩ .f32 0x00000000#32)) (ix2 p k)
      = max (a (ix2 p k) + row (ix2 0 k)) zeroW := by
  show max (a (ix2 p k) + broadcastInDim ⟨2, ![m, c]⟩ ![0, 1] h2 row (ix2 p k))
      (broadcastInDim ⟨2, ![m, c]⟩ ![] h0 (constant (F := Ideal) ⟨0, ![]⟩ .f32 0x00000000#32) (ix2 p k)) = _
  rw [BroadcastRows.row_apply, HostBroadcasts.scalar_apply]
  rfl

/-- The logistic function as the host spells it, at an index. -/
theorem host_logistic_entry {s : Shape} (x : FVec Ideal s .f32) (h0 h0' : (⟨0, ![]⟩ : Shape).BroadcastsInDim s ![])
    (i : s.Idx) :
    Host.divf (broadcastInDim s ![] h0 (constant (F := Ideal) ⟨0, ![]⟩ .f32 0x3F800000#32))
        (addf (broadcastInDim s ![] h0' (constant (F := Ideal) ⟨0, ![]⟩ .f32 0x3F800000#32)) (Host.exp (Host.negf x))) i
      = Ideal.logistic (x i) := by
  show Ideal.div (broadcastInDim s ![] h0 (constant (F := Ideal) ⟨0, ![]⟩ .f32 0x3F800000#32) i)
      (broadcastInDim s ![] h0' (constant (F := Ideal) ⟨0, ![]⟩ .f32 0x3F800000#32) i + Ideal.exp (-(x i))) = _
  rw [HostBroadcasts.scalar_apply]
  exact Logistic.one_div_one_add_exp_neg (x i)

/-- The 32 gate pre-activations as the host spells them, at an entry: the clamped biased block times the input weights,
    plus the two gate-bias rows. -/
theorem host_gates_entry {M : ℕ} (D : DotDims ⟨2, ![M, 16]⟩ ⟨2, ![16, 32]⟩ ⟨2, ![M, 32]⟩) (hD : D = DotDims.plain M 16 32)
    (a : FVec Ideal ⟨2, ![M, 16]⟩ .f32) (r2 : FVec Ideal ⟨2, ![1, 16]⟩ .f32) (wih : FVec Ideal ⟨2, ![16, 32]⟩ .f32)
    (rbi rbh : FVec Ideal ⟨2, ![1, 32]⟩ .f32)
    (h2 : (⟨2, ![1, 16]⟩ : Shape).BroadcastsInDim ⟨2, ![M, 16]⟩ ![0, 1])
    (h0 : (⟨0, ![]⟩ : Shape).BroadcastsInDim ⟨2, ![M, 16]⟩ ![])
    (h3 h3' : (⟨2, ![1, 32]⟩ : Shape).BroadcastsInDim ⟨2, ![M, 32]⟩ ![0, 1]) (p : Fin M) (j : Fin 32) :
    addf (addf (Host.dotGeneral D none
            (maximumf (addf a (broadcastInDim ⟨2, ![M, 16]⟩ ![0, 1] h2 r2))
              (broadcastInDim ⟨2, ![M, 16]⟩ ![] h0 (constant (F := Ideal) ⟨0, ![]⟩ .f32 0x00000000#32))) wih)
          (broadcastInDim ⟨2, ![M, 32]⟩ ![0, 1] h3 rbi))
        (broadcastInDim ⟨2, ![M, 32]⟩ ![0, 1] h3' rbh) (ix2 p j)
      = LstmReadout.gatesRow (LstmReadout.projRow a r2 wih p) rbi rbh j := by
  have e1 : Host.dotGeneral D none
        (maximumf (addf a (broadcastInDim ⟨2, ![M, 16]⟩ ![0, 1] h2 r2))
          (broadcastInDim ⟨2, ![M, 16]⟩ ![] h0 (constant (F := Ideal) ⟨0, ![]⟩ .f32 0x00000000#32))) wih (ix2 p j)
      = LstmReadout.projRow a r2 wih p j := by
    refine (DotNN.dotGeneral_apply D hD none _ _ p j).trans ?_
    exact Finset.sum_congr rfl fun l _ => congrArg₂ (· * ·) (host_clamp_entry a r2 h2 h0 p l) rfl
  have e2 : broadcastInDim ⟨2, ![M, 32]⟩ ![0, 1] h3 rbi (ix2 p j) = rbi (ix2 0 j) := BroadcastRows.row_apply rbi h3 p j
  have e3 : broadcastInDim ⟨2, ![M, 32]⟩ ![0, 1] h3' rbh (ix2 p j) = rbh (ix2 0 j) := BroadcastRows.row_apply rbh h3' p j
  show ((Host.dotGeneral D none
        (maximumf (addf a (broadcastInDim ⟨2, ![M, 16]⟩ ![0, 1] h2 r2))
          (broadcastInDim ⟨2, ![M, 16]⟩ ![] h0 (constant (F := Ideal) ⟨0, ![]⟩ .f32 0x00000000#32))) wih (ix2 p j) : EReal)
      + broadcastInDim ⟨2, ![M, 32]⟩ ![0, 1] h3 rbi (ix2 p j)) + broadcastInDim ⟨2, ![M, 32]⟩ ![0, 1] h3' rbh (ix2 p j) = _
  rw [e1, e2, e3]
  rfl

/-- One LSTM step from the zero state as the host spells it, at an entry: from the array G of gate pre-activations, the
    hidden unit k of node p. -/
theorem host_hidden_entry {M : ℕ} (G : FVec Ideal ⟨2, ![M, 32]⟩ .f32)
    (s0 : (⟨2, ![M, 32]⟩ : Shape).Slices ![0, 0] ⟨2, ![M, 8]⟩) (s16 : (⟨2, ![M, 32]⟩ : Shape).Slices ![0, 16] ⟨2, ![M, 8]⟩)
    (s24 : (⟨2, ![M, 32]⟩ : Shape).Slices ![0, 24] ⟨2, ![M, 8]⟩)
    (hb1 hb2 hb3 hb4 : (⟨0, ![]⟩ : Shape).BroadcastsInDim ⟨2, ![M, 8]⟩ ![]) (p : Fin M) (k : Fin 8) :
    (mulf (Host.divf (broadcastInDim ⟨2, ![M, 8]⟩ ![] hb3 (constant (F := Ideal) ⟨0, ![]⟩ .f32 0x3F800000#32)) (addf (broadcastInDim ⟨2, ![M, 8]⟩ ![] hb4 (constant (F := Ideal) ⟨0, ![]⟩ .f32 0x3F800000#32)) (Host.exp (Host.negf (extractStridedSlice ⟨2, ![M, 8]⟩ ![0, 24] G s24))))) (Host.tanh (mulf (Host.divf (broadcastInDim ⟨2, ![M, 8]⟩ ![] hb1 (constant (F := Ideal) ⟨0, ![]⟩ .f32 0x3F800000#32)) (addf (broadcastInDim ⟨2, ![M, 8]⟩ ![] hb2 (constant (F := Ideal) ⟨0, ![]⟩ .f32 0x3F800000#32)) (Host.exp (Host.negf (extractStridedSlice ⟨2, ![M, 8]⟩ ![0, 0] G s0))))) (Host.tanh (extractStridedSlice ⟨2, ![M, 8]⟩ ![0, 16] G s16))))) (ix2 p k)
      = LstmReadout.hiddenRow (fun j => G (ix2 p j)) k := by
  have e24 : (extractStridedSlice ⟨2, ![M, 8]⟩ ![0, 24] G s24) (ix2 p k) = G (ix2 p ⟨24 + k.val, by omega⟩) := slice2_axis1_eq 24 G s24 p k
  have e0 : (extractStridedSlice ⟨2, ![M, 8]⟩ ![0, 0] G s0) (ix2 p k) = G (ix2 p ⟨0 + k.val, by omega⟩) := slice2_axis1_eq 0 G s0 p k
  have e16 : (extractStridedSlice ⟨2, ![M, 8]⟩ ![0, 16] G s16) (ix2 p k) = G (ix2 p ⟨16 + k.val, by omega⟩) := slice2_axis1_eq 16 G s16 p k
  have l24 := host_logistic_entry (extractStridedSlice ⟨2, ![M, 8]⟩ ![0, 24] G s24) hb3 hb4 (ix2 p k)
  have l0 := host_logistic_entry (extractStridedSlice ⟨2, ![M, 8]⟩ ![0, 0] G s0) hb1 hb2 (ix2 p k)
  show ((Host.divf (broadcastInDim ⟨2, ![M, 8]⟩ ![] hb3 (constant (F := Ideal) ⟨0, ![]⟩ .f32 0x3F800000#32)) (addf (broadcastInDim ⟨2, ![M, 8]⟩ ![] hb4 (constant (F := Ideal) ⟨0, ![]⟩ .f32 0x3F800000#32)) (Host.exp (Host.negf (extractStridedSlice ⟨2, ![M, 8]⟩ ![0, 24] G s24))))) (ix2 p k) : EReal)
      * Ideal.tanh ((Host.divf (broadcastInDim ⟨2, ![M, 8]⟩ ![] hb1 (constant (F := Ideal) ⟨0, ![]⟩ .f32 0x3F800000#32)) (addf (broadcastInDim ⟨2, ![M, 8]⟩ ![] hb2 (constant (F := Ideal) ⟨0, ![]⟩ .f32 0x3F800000#32)) (Host.exp (Host.negf (extractStridedSlice ⟨2, ![M, 8]⟩ ![0, 0] G s0))))) (ix2 p k) * Ideal.tanh ((extractStridedSlice ⟨2, ![M, 8]⟩ ![0, 16] G s16) (ix2 p k))) = _
  rw [l24, l0, e24, e0, e16]
  rfl

/-- The readout as the host spells it, at an entry. -/
theorem host_readout_entry {M : ℕ} (D : DotDims ⟨2, ![M, 8]⟩ ⟨2, ![8, 1]⟩ ⟨2, ![M, 1]⟩) (hD : D = DotDims.plain M 8 1)
    (G : FVec Ideal ⟨2, ![M, 32]⟩ .f32) (wo : FVec Ideal ⟨2, ![8, 1]⟩ .f32) (rbo : FVec Ideal ⟨2, ![1, 1]⟩ .f32)
    (s0 : (⟨2, ![M, 32]⟩ : Shape).Slices ![0, 0] ⟨2, ![M, 8]⟩) (s16 : (⟨2, ![M, 32]⟩ : Shape).Slices ![0, 16] ⟨2, ![M, 8]⟩)
    (s24 : (⟨2, ![M, 32]⟩ : Shape).Slices ![0, 24] ⟨2, ![M, 8]⟩)
    (hb1 hb2 hb3 hb4 : (⟨0, ![]⟩ : Shape).BroadcastsInDim ⟨2, ![M, 8]⟩ ![])
    (h3 : (⟨2, ![1, 1]⟩ : Shape).BroadcastsInDim ⟨2, ![M, 1]⟩ ![0, 1]) (p : Fin M) (u : Fin 1) :
    addf (Host.dotGeneral D none (mulf (Host.divf (broadcastInDim ⟨2, ![M, 8]⟩ ![] hb3 (constant (F := Ideal) ⟨0, ![]⟩ .f32 0x3F800000#32)) (addf (broadcastInDim ⟨2, ![M, 8]⟩ ![] hb4 (constant (F := Ideal) ⟨0, ![]⟩ .f32 0x3F800000#32)) (Host.exp (Host.negf (extractStridedSlice ⟨2, ![M, 8]⟩ ![0, 24] G s24))))) (Host.tanh (mulf (Host.divf (broadcastInDim ⟨2, ![M, 8]⟩ ![] hb1 (constant (F := Ideal) ⟨0, ![]⟩ .f32 0x3F800000#32)) (addf (broadcastInDim ⟨2, ![M, 8]⟩ ![] hb2 (constant (F := Ideal) ⟨0, ![]⟩ .f32 0x3F800000#32)) (Host.exp (Host.negf (extractStridedSlice ⟨2, ![M, 8]⟩ ![0, 0] G s0))))) (Host.tanh (extractStridedSlice ⟨2, ![M, 8]⟩ ![0, 16] G s16))))) wo) (broadcastInDim ⟨2, ![M, 1]⟩ ![0, 1] h3 rbo) (ix2 p u)
      = LstmReadout.readoutRow (fun j => G (ix2 p j)) wo rbo u := by
  have e1 : Host.dotGeneral D none (mulf (Host.divf (broadcastInDim ⟨2, ![M, 8]⟩ ![] hb3 (constant (F := Ideal) ⟨0, ![]⟩ .f32 0x3F800000#32)) (addf (broadcastInDim ⟨2, ![M, 8]⟩ ![] hb4 (constant (F := Ideal) ⟨0, ![]⟩ .f32 0x3F800000#32)) (Host.exp (Host.negf (extractStridedSlice ⟨2, ![M, 8]⟩ ![0, 24] G s24))))) (Host.tanh (mulf (Host.divf (broadcastInDim ⟨2, ![M, 8]⟩ ![] hb1 (constant (F := Ideal) ⟨0, ![]⟩ .f32 0x3F800000#32)) (addf (broadcastInDim ⟨2, ![M, 8]⟩ ![] hb2 (constant (F := Ideal) ⟨0, ![]⟩ .f32 0x3F800000#32)) (Host.exp (Host.negf (extractStridedSlice ⟨2, ![M, 8]⟩ ![0, 0] G s0))))) (Host.tanh (extractStridedSlice ⟨2, ![M, 8]⟩ ![0, 16] G s16))))) wo (ix2 p u)
      = ∑ k : Fin 8, LstmReadout.hiddenRow (fun j => G (ix2 p j)) k * wo (ix2 k u) := by
    refine (DotNN.dotGeneral_apply D hD none _ _ p u).trans ?_
    exact Finset.sum_congr rfl fun k _ => congrArg₂ (· * ·) (host_hidden_entry G s0 s16 s24 hb1 hb2 hb3 hb4 p k) rfl
  have e2 : broadcastInDim ⟨2, ![M, 1]⟩ ![0, 1] h3 rbo (ix2 p u) = rbo (ix2 0 u) := BroadcastRows.row_apply rbo h3 p u
  show (Host.dotGeneral D none (mulf (Host.divf (broadcastInDim ⟨2, ![M, 8]⟩ ![] hb3 (constant (F := Ideal) ⟨0, ![]⟩ .f32 0x3F800000#32)) (addf (broadcastInDim ⟨2, ![M, 8]⟩ ![] hb4 (constant (F := Ideal) ⟨0, ![]⟩ .f32 0x3F800000#32)) (Host.exp (Host.negf (extractStridedSlice ⟨2, ![M, 8]⟩ ![0, 24] G s24))))) (Host.tanh (mulf (Host.divf (broadcastInDim ⟨2, ![M, 8]⟩ ![] hb1 (constant (F := Ideal) ⟨0, ![]⟩ .f32 0x3F800000#32)) (addf (broadcastInDim ⟨2, ![M, 8]⟩ ![] hb2 (constant (F := Ideal) ⟨0, ![]⟩ .f32 0x3F800000#32)) (Host.exp (Host.negf (extractStridedSlice ⟨2, ![M, 8]⟩ ![0, 0] G s0))))) (Host.tanh (extractStridedSlice ⟨2, ![M, 8]⟩ ![0, 16] G s16))))) wo (ix2 p u) : EReal) + broadcastInDim ⟨2, ![M, 1]⟩ ![0, 1] h3 rbo (ix2 p u) = _
  rw [e1, e2]
  rfl

/-! ## The neighbourhood sum, opaque -/

/-- The normalised neighbourhood sum of a [100000, 32] array along the edge list: the reference's own operations. -/
def agg32 (h : (⟨S100000x32, .f32⟩ : BufTy).Contents (Elt Ideal)) (x1 : (⟨S2x3200000, .i32⟩ : BufTy).Contents (Elt Ideal)) :
    (⟨S100000x32, .f32⟩ : BufTy).Contents (Elt Ideal) :=
  Host.scatterAdd (F := Ideal) (φ := .f32) scatter_S100000x32_S3300000x1_S3300000x32_1_0_0_1 (val_main_v43 (F := Ideal)) (val_main_v44 (F := Ideal) x1)
    (mulf (F := Ideal) (φ := .f32) (Host.gather (α := Ideal .f32) gather_S100000x32_S3300000x1_S3300000x32_1_0_n_n_0_1_132 h (val_main_v38 (F := Ideal) x1)) (val_main_v41 (F := Ideal) x1))

/-- The same of a [100000, 16] array. -/
def agg16 (h : (⟨S100000x16, .f32⟩ : BufTy).Contents (Elt Ideal)) (x1 : (⟨S2x3200000, .i32⟩ : BufTy).Contents (Elt Ideal)) :
    (⟨S100000x16, .f32⟩ : BufTy).Contents (Elt Ideal) :=
  Host.scatterAdd (F := Ideal) (φ := .f32) scatter_S100000x16_S3300000x1_S3300000x16_1_0_0_1 (val_main_v62 (F := Ideal)) (val_main_v63 (F := Ideal) x1)
    (mulf (F := Ideal) (φ := .f32) (Host.gather (α := Ideal .f32) gather_S100000x16_S3300000x1_S3300000x16_1_0_n_n_0_1_116 h (val_main_v57 (F := Ideal) x1)) (val_main_v60 (F := Ideal) x1))

section Stages

variable (x0 : (⟨S100000x128, .f32⟩ : BufTy).Contents (Elt Ideal)) (x1 : (⟨S2x3200000, .i32⟩ : BufTy).Contents (Elt Ideal))
  (x2 : (⟨S32x128, .f32⟩ : BufTy).Contents (Elt Ideal)) (x3 : (⟨S32, .f32⟩ : BufTy).Contents (Elt Ideal))
  (x4 : (⟨S16x32, .f32⟩ : BufTy).Contents (Elt Ideal)) (x5 : (⟨S16, .f32⟩ : BufTy).Contents (Elt Ideal))
  (x6 : (⟨S32x16, .f32⟩ : BufTy).Contents (Elt Ideal)) (x8 x9 : (⟨S32, .f32⟩ : BufTy).Contents (Elt Ideal))
  (x10 : (⟨S1x8, .f32⟩ : BufTy).Contents (Elt Ideal)) (x11 : (⟨S1, .f32⟩ : BufTy).Contents (Elt Ideal))

theorem v45_eq : val_main_v45 (F := Ideal) x0 x1 x2 = agg32 (val_main_v32 (F := Ideal) x0 x2) x1 := by
  unfold val_main_v45 val_main_v42 val_main_v39 agg32
  with_reducible rfl

theorem v64_eq : val_main_v64 (F := Ideal) x0 x1 x2 x3 x4 = agg16 (val_main_v51 (F := Ideal) x0 x1 x2 x3 x4) x1 := by
  unfold val_main_v64 val_main_v61 val_main_v58 agg16
  with_reducible rfl

/-- The first projection is the dense product of the features and the transposed weights. -/
theorem v32_eq : val_main_v32 (F := Ideal) x0 x2 = dense (n := 100000) (k := 128) (c := 32) x0 (val_main_v31 (F := Ideal) x2) := by
  funext i
  obtain ⟨p, q, rfl⟩ : ∃ (p : Fin 100000) (q : Fin 32), i = ix2 p q := ⟨i 0, i 1, eq_ix2 i⟩
  unfold val_main_v32
  rw [dense_apply]
  exact DotNN.dotGeneral_apply dot_S100000x128_S128x32_S100000x32_1_0_0_1_n_n rfl none x0 _ p q

/-- The second projection, of the clamped biased first aggregation. -/
theorem v51_eq : val_main_v51 (F := Ideal) x0 x1 x2 x3 x4
    = dense (n := 100000) (k := 32) (c := 16)
        (biasClamp (n := 100000) (c := 32) (val_main_v45 (F := Ideal) x0 x1 x2) (val_main_v46 (F := Ideal) x3)) (val_main_v50 (F := Ideal) x4) := by
  funext i
  obtain ⟨p, q, rfl⟩ : ∃ (p : Fin 100000) (q : Fin 16), i = ix2 p q := ⟨i 0, i 1, eq_ix2 i⟩
  unfold val_main_v51
  rw [dense_apply]
  refine (DotNN.dotGeneral_apply dot_S100000x32_S32x16_S100000x16_1_0_0_1_n_n rfl none _ _ p q).trans ?_
  refine Finset.sum_congr rfl fun k _ => ?_
  refine congrArg₂ (· * ·) ?_ rfl
  unfold val_main_v49 val_main_v48 val_main_v47 val_main_call1_v0 val_main_call1_cst
  rw [biasClamp_apply]
  generalize val_main_v45 (F := Ideal) x0 x1 x2 = A
  exact host_clamp_entry A _ _ _ p k

/-- The 32 gate pre-activations of node p. -/
theorem gates_entry (p : Fin 100000) (j : Fin 32) :
    val_main_v76 (F := Ideal) x0 x1 x2 x3 x4 x5 x6 x8 x9 (ix2 p j)
      = LstmReadout.gatesRow (LstmReadout.projRow (n := 100000) (val_main_v64 (F := Ideal) x0 x1 x2 x3 x4) (val_main_v65 (F := Ideal) x5)
          (val_main_v69 (F := Ideal) x6) p) (val_main_v71 (F := Ideal) x8) (val_main_v74 (F := Ideal) x9) j := by
  unfold val_main_v76 val_main_v75 val_main_v73 val_main_v72 val_main_v70 val_main_v68 val_main_v67 val_main_v66 val_main_call2_v0
    val_main_call2_cst
  generalize val_main_v64 (F := Ideal) x0 x1 x2 x3 x4 = A
  exact host_gates_entry dot_S100000x16_S16x32_S100000x32_1_0_0_1_n_n rfl A _ _ _ _ _ _ _ _ p j

/-- The last stage before the closing reshape: the LSTM step and the readout of the clamped biased second aggregation. -/
theorem v101_eq : val_main_v101 (F := Ideal) x0 x1 x2 x3 x4 x5 x6 x8 x9 x10 x11
    = LstmReadout.lstmOut (n := 100000) (val_main_v64 (F := Ideal) x0 x1 x2 x3 x4) (val_main_v65 (F := Ideal) x5) (val_main_v69 (F := Ideal) x6)
        (val_main_v71 (F := Ideal) x8) (val_main_v74 (F := Ideal) x9) (val_main_v97 (F := Ideal) x10) (val_main_v99 (F := Ideal) x11) := by
  funext i
  obtain ⟨p, u, rfl⟩ : ∃ (p : Fin 100000) (u : Fin 1), i = ix2 p u := ⟨i 0, i 1, eq_ix2 i⟩
  rw [LstmReadout.lstmOut_apply]
  have hG : (fun j => val_main_v76 (F := Ideal) x0 x1 x2 x3 x4 x5 x6 x8 x9 (ix2 p j))
      = LstmReadout.gatesRow (LstmReadout.projRow (n := 100000) (val_main_v64 (F := Ideal) x0 x1 x2 x3 x4) (val_main_v65 (F := Ideal) x5)
          (val_main_v69 (F := Ideal) x6) p) (val_main_v71 (F := Ideal) x8) (val_main_v74 (F := Ideal) x9) :=
    funext fun j => gates_entry x0 x1 x2 x3 x4 x5 x6 x8 x9 p j
  rw [← hG]
  unfold val_main_v101 val_main_v100 val_main_v98
    val_main_v96 val_main_v95 val_main_v94 val_main_v93 val_main_v92 val_main_v91 val_main_v90 val_main_v89 val_main_v88
    val_main_v87 val_main_v86 val_main_v85 val_main_v84 val_main_v83 val_main_v82 val_main_v81 val_main_v80 val_main_v79 val_main_v77
    val_main_cst_12 val_main_cst_13 val_main_cst_14 val_main_cst_15
  generalize val_main_v76 (F := Ideal) x0 x1 x2 x3 x4 x5 x6 x8 x9 = G
  exact host_readout_entry dot_S100000x8_S8x1_S100000x1_1_0_0_1_n_n rfl G _ _ _ _ _ _ _ _ _ _ p u

end Stages

/-! ## A vector as one row, two spellings -/

/-- The host reshape [c] → [1, c] and the broadcast [c] → [1, c] along axis 1 are the same row. -/
theorem row_forms {c : ℕ} (b : (⟨1, ![c]⟩ : Shape).Idx → EReal) (hs : (⟨1, ![c]⟩ : Shape).ShapeCasts ⟨2, ![1, c]⟩)
    (hb : (⟨1, ![c]⟩ : Shape).BroadcastsInDim ⟨2, ![1, c]⟩ ![1]) :
    shapeCast ⟨2, ![1, c]⟩ b hs = broadcastInDim ⟨2, ![1, c]⟩ ![1] hb b := by
  funext i
  obtain ⟨u, q, rfl⟩ : ∃ (u : Fin 1) (q : Fin c), i = ix2 u q := ⟨i 0, i 1, eq_ix2 i⟩
  rw [BroadcastRows.unit_apply]
  exact shapeCast_a_1a_apply b hs u q

end Cert.RefStages

end
-- ==== Proof.Network.lean ====
/-
  The network as ONE function of the arguments, and the reference's result as that function.

      network x … = reshape [100000,1]→[100000] of
        lstmOut (agg16 (dense (biasClamp (agg32 (dense x W1ᵀ)) b1) W2ᵀ)) b2 Wihᵀ bih bhh Woutᵀ bout

  (the recurrent weights, which multiply the zero initial state, do not appear).  The reference's stages compose to it:
  each dense stage by its entry-by-entry reading (RefStages), the two neighbourhood sums as the reference's own operations.
-/
import proofs.«173190_j27169963114973_1_alg».proof.Proof.RefStages

noncomputable section

namespace Cert.Network

open Idealize.ShloMosaic Cert.ReferenceIdeal Cert.ReferenceIdeal.Gen Cert.ReferenceIdeal.ReadP Cert.Gcn Cert.RefStages

section
variable (x0 : (⟨S100000x128, .f32⟩ : BufTy).Contents (Elt Ideal)) (x1 : (⟨S2x3200000, .i32⟩ : BufTy).Contents (Elt Ideal))
  (x2 : (⟨S32x128, .f32⟩ : BufTy).Contents (Elt Ideal)) (x3 : (⟨S32, .f32⟩ : BufTy).Contents (Elt Ideal))
  (x4 : (⟨S16x32, .f32⟩ : BufTy).Contents (Elt Ideal)) (x5 : (⟨S16, .f32⟩ : BufTy).Contents (Elt Ideal))
  (x6 : (⟨S32x16, .f32⟩ : BufTy).Contents (Elt Ideal)) (x8 x9 : (⟨S32, .f32⟩ : BufTy).Contents (Elt Ideal))
  (x10 : (⟨S1x8, .f32⟩ : BufTy).Contents (Elt Ideal)) (x11 : (⟨S1, .f32⟩ : BufTy).Contents (Elt Ideal))

/-- The first layer's projection. -/
def layer0 : (⟨S100000x32, .f32⟩ : BufTy).Contents (Elt Ideal) :=
  dense (n := 100000) (k := 128) (c := 32) x0 (val_main_v31 (F := Ideal) x2)

/-- The second layer's projection of the clamped, biased first neighbourhood sum. -/
def layer1 : (⟨S100000x16, .f32⟩ : BufTy).Contents (Elt Ideal) :=
  dense (n := 100000) (k := 32) (c := 16)
    (biasClamp (n := 100000) (c := 32) (agg32 (layer0 x0 x2) x1) (val_main_v46 (F := Ideal) x3)) (val_main_v50 (F := Ideal) x4)

/-- The network's output as a column. -/
def beforeReshape : (⟨S100000x1, .f32⟩ : BufTy).Contents (Elt Ideal) :=
  LstmReadout.lstmOut (n := 100000) (agg16 (layer1 x0 x1 x2 x3 x4) x1) (val_main_v65 (F := Ideal) x5) (val_main_v69 (F := Ideal) x6)
    (val_main_v71 (F := Ideal) x8) (val_main_v74 (F := Ideal) x9) (val_main_v97 (F := Ideal) x10) (val_main_v99 (F := Ideal) x11)

/-- The network's output vector. -/
def network : (⟨S100000, .f32⟩ : BufTy).Contents (Elt Ideal) :=
  shapeCast S100000 (beforeReshape x0 x1 x2 x3 x4 x5 x6 x8 x9 x10 x11) shapeCasts_S100000x1_S100000

/-- The reference's result is the network function of its arguments. -/
theorem ref_value : val_main_v102 (F := Ideal) x0 x1 x2 x3 x4 x5 x6 x8 x9 x10 x11 = network x0 x1 x2 x3 x4 x5 x6 x8 x9 x10 x11 := by
  unfold val_main_v102 network beforeReshape layer1 layer0
  rw [v101_eq, v64_eq, v51_eq, v45_eq, v32_eq]

end

end Cert.Network

end
-- ==== Proof.KernelRun.lean ====
/-
  The kernel program's run with its RESULT named.  The program is three kernel regions among stretches of host
  operations; its buffer contents at every boundary are a fold from the launch memory (the frame module's W0 … W9: a
  host stretch applies its operations, a region leaves its arrays at what its write-backs make of them).  The frame
  theorem reads only the twelve argument arrays against the last boundary W9; here the result buffer is read against
  it as well, so that after the run the result array IS W9's contents at that buffer and the arguments are as launched.
-/
import proofs.«173190_j27169963114973_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and every argument array as launched: the launch over the program's nine segments, the last
    thread state read against the final state at the result buffer and at each argument. -/
theorem run_result : θ_run defs (onTc (τ := τ) (main (F := F))) ⟨m, fun _ => 0, ρ⟩ (fun r => ∀ c : Dev nD,
      r.2.mem ((c.tc : Thread nD τ).loc main_v69) = W9 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v69 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.Result

end
-- ==== Proof.KernelBodies.lean ====
/-
  What each of the three kernel bodies computes on one block of 2000 rows, as a function of the blocks it loads, over
  the extended reals (where a change of float format is the identity):

    first body   : the block of node features times the transposed first weight matrix            (dense x w)
    second body  : max (a + b1) 0 of the block of aggregated features, times the second weights   (dense (biasClamp a b) w)
    third body   : max (a + b2) 0, the gate pre-activations, one LSTM step from the zero state and the linear readout
                   (LstmReadout.lstmOut).

  Each matrix product is on the matrix unit into a zero accumulator, so at an entry it is the plain sum over the
  contracted axis; a bias row [1, c] is spread over the 2000 rows; the gates are column ranges of the 32 pre-activations.
-/
import proofs.«173190_j27169963114973_1_alg».proof.Proof.Gen.KernelIdeal.Skeleton
import proofs.«173190_j27169963114973_1_alg».proof.Proof.LibMatmulNN
import proofs.«173190_j27169963114973_1_alg».proof.Proof.LibRowSteps
import proofs.«173190_j27169963114973_1_alg».proof.Proof.LstmReadout
import Idealize.ShloMosaic.Lib.Pipeline.Value
import Idealize.ShloMosaic.Lib.ValueIdx
import Idealize.ShloMosaic.Lib.ValueLayout

noncomputable section

namespace Cert.KernelBodies

open Idealize.ShloMosaic Idealize.ShloMosaic.ValueIdx Cert.KernelIdeal Cert.KernelIdeal.Gen Cert.Gcn

/-- A block through an identity cast plus a bias row through an identity cast spread over the rows, clamped below at
    the zero word (whatever the float format it is then narrowed to), read at an entry. -/
theorem clamp_entry {m c : ℕ} (v0 : FVec Ideal ⟨2, ![m, c]⟩ .f32) (v2 : FVec Ideal ⟨2, ![1, c]⟩ .f32)
    (h1 : (⟨2, ![m, c]⟩ : Shape).ShapeCasts ⟨2, ![m, c]⟩) (h2 : (⟨2, ![1, c]⟩ : Shape).ShapeCasts ⟨2, ![1, c]⟩)
    (h3 : (⟨2, ![1, c]⟩ : Shape).Broadcasts ⟨2, ![m, c]⟩) (hb : FTy.bf16.bits < FTy.f32.bits) (p : Fin m) (k : Fin c) :
    (truncf .bf16 (maximumf (addf (shapeCast ⟨2, ![m, c]⟩ v0 h1) (broadcastTo ⟨2, ![m, c]⟩ (shapeCast ⟨2, ![1, c]⟩ v2 h2) h3))
        (broadcast ⟨2, ![m, c]⟩ (Scalar.ofBits (F := Ideal) .f32 0x00000000#32))) hb) (ix2 p k)
      = max (v0 (ix2 p k) + v2 (ix2 0 k)) zeroW := by
  show max (shapeCast ⟨2, ![m, c]⟩ v0 h1 (ix2 p k) + broadcastTo ⟨2, ![m, c]⟩ (shapeCast ⟨2, ![1, c]⟩ v2 h2) h3 (ix2 p k)) _ = _
  rw [shapeCast_self, broadcastTo_1b_ab_apply, shapeCast_self]
  rfl

/-- A bias row through an identity cast, spread over the rows, read at an entry. -/
theorem bias_entry {m c : ℕ} (v : FVec Ideal ⟨2, ![1, c]⟩ .f32)
    (h2 : (⟨2, ![1, c]⟩ : Shape).ShapeCasts ⟨2, ![1, c]⟩) (h3 : (⟨2, ![1, c]⟩ : Shape).Broadcasts ⟨2, ![m, c]⟩)
    (p : Fin m) (k : Fin c) :
    broadcastTo ⟨2, ![m, c]⟩ (shapeCast ⟨2, ![1, c]⟩ v h2) h3 (ix2 p k) = v (ix2 0 k) := by
  rw [broadcastTo_1b_ab_apply, shapeCast_self]

/-- A weight block through an identity cast, narrowed, read at an entry. -/
theorem weight_entry {a b : ℕ} (w : FVec Ideal ⟨2, ![a, b]⟩ .f32) (h : (⟨2, ![a, b]⟩ : Shape).ShapeCasts ⟨2, ![a, b]⟩)
    (hb : FTy.bf16.bits < FTy.f32.bits) (i : (⟨2, ![a, b]⟩ : Shape).Idx) :
    (truncf .bf16 (shapeCast ⟨2, ![a, b]⟩ w h) hb) i = w i := by
  show shapeCast ⟨2, ![a, b]⟩ w h i = w i
  rw [shapeCast_self]

/-- The first body: the block of node features times the weights. -/
theorem pay0_eq (x0 : Vec Ideal S2000x128 .f32) (x1 : Vec Ideal S128x32 .f32) :
    k0_pay1 (F := Ideal) x0 x1 = dense x0 x1 := by
  funext j
  obtain ⟨p, q, rfl⟩ : ∃ (p : Fin 2000) (q : Fin 32), j = ix2 p q := ⟨j 0, j 1, eq_ix2 j⟩
  rw [dense_apply]
  unfold k0_pay1
  refine (MatmulNN.matmul_zero_apply dot_S2000x128_S128x32_S2000x32_1_0_0_1_n_n rfl none _ _ p q).trans ?_
  refine Finset.sum_congr rfl fun k _ => ?_
  refine congrArg₂ (· * ·) rfl ?_
  exact weight_entry x1 _ _ (ix2 k q)

/-- The second body: the clamped, biased block of aggregated features times the weights. -/
theorem pay1_eq (v0 : Vec Ideal S2000x32 .f32) (v2 : Vec Ideal S1x32 .f32) (v9 : Vec Ideal S32x16 .f32) :
    k1_pay1 (F := Ideal) v0 v2 v9 = dense (biasClamp v0 v2) v9 := by
  funext j
  obtain ⟨p, q, rfl⟩ : ∃ (p : Fin 2000) (q : Fin 16), j = ix2 p q := ⟨j 0, j 1, eq_ix2 j⟩
  rw [dense_apply]
  unfold k1_pay1
  refine (MatmulNN.matmul_zero_apply dot_S2000x32_S32x16_S2000x16_1_0_0_1_n_n rfl none _ _ p q).trans ?_
  refine Finset.sum_congr rfl fun k _ => ?_
  refine congrArg₂ (· * ·) ?_ ?_
  · rw [biasClamp_apply]
    exact clamp_entry v0 v2 _ _ _ _ p k
  · exact weight_entry v9 _ _ (ix2 k q)

/-- The 32 gate pre-activations of row p of a block, as the third body computes them. -/
theorem gates_entry (v0 : Vec Ideal S2000x16 .f32) (v2 : Vec Ideal S1x16 .f32) (v9 : Vec Ideal S16x32 .f32)
    (v13 v17 : Vec Ideal S1x32 .f32)
    (h1 : S2000x16.ShapeCasts S2000x16) (h2 : S1x16.ShapeCasts S1x16) (h3 : S1x16.Broadcasts S2000x16)
    (hb : FTy.bf16.bits < FTy.f32.bits) (h4 : S16x32.ShapeCasts S16x32)
    (h5 : S1x32.ShapeCasts S1x32) (h6 : S1x32.Broadcasts S2000x32) (p : Fin 2000) (j : Fin 32) :
    (addf (addf (matmul dot_S2000x16_S16x32_S2000x32_1_0_0_1_n_n none
          (truncf .bf16 (maximumf (addf (shapeCast S2000x16 v0 h1) (broadcastTo S2000x16 (shapeCast S1x16 v2 h2) h3))
            (broadcast S2000x16 (Scalar.ofBits (F := Ideal) .f32 0x00000000#32))) hb)
          (truncf .bf16 (shapeCast S16x32 v9 h4) hb) (constant S2000x32 .f32 0x00000000#32))
        (broadcastTo S2000x32 (shapeCast S1x32 v13 h5) h6))
      (broadcastTo S2000x32 (shapeCast S1x32 v17 h5) h6)) (ix2 p j)
      = LstmReadout.gatesRow (LstmReadout.projRow v0 v2 v9 p) v13 v17 j := by
  unfold LstmReadout.gatesRow LstmReadout.projRow
  show (_ + _) + _ = (_ + _) + _
  refine congrArg₂ (· + ·) (congrArg₂ (· + ·) ?_ ?_) ?_
  · refine (MatmulNN.matmul_zero_apply dot_S2000x16_S16x32_S2000x32_1_0_0_1_n_n rfl none _ _ p j).trans ?_
    refine Finset.sum_congr rfl fun l _ => ?_
    refine congrArg₂ (· * ·) ?_ ?_
    · exact clamp_entry v0 v2 _ _ _ _ p l
    · exact weight_entry v9 _ _ (ix2 l j)
  · exact bias_entry v13 _ _ p j
  · exact bias_entry v17 _ _ p j

/-- The third body: bias and clamp, the gates, one LSTM step from the zero state, the readout. -/
theorem pay2_eq (v0 : Vec Ideal S2000x16 .f32) (v2 : Vec Ideal S1x16 .f32) (v9 : Vec Ideal S16x32 .f32)
    (v13 v17 : Vec Ideal S1x32 .f32) (v31 : Vec Ideal S8x1 .f32) (v35 : Vec Ideal S1x1 .f32) :
    k2_pay1 (F := Ideal) v0 v2 v9 v13 v17 v31 v35 = LstmReadout.lstmOut v0 v2 v9 v13 v17 v31 v35 := by
  funext j
  obtain ⟨p, u, rfl⟩ : ∃ (p : Fin 2000) (u : Fin 1), j = ix2 p u := ⟨j 0, j 1, eq_ix2 j⟩
  rw [LstmReadout.lstmOut_apply]
  unfold k2_pay1 LstmReadout.readoutRow
  show _ + _ = _ + _
  refine congrArg₂ (· + ·) ?_ ?_
  · refine (MatmulNN.matmul_zero_apply dot_S2000x8_S8x1_S2000x1_1_0_0_1_n_n rfl none _ _ p u).trans ?_
    refine Finset.sum_congr rfl fun k _ => ?_
    refine congrArg₂ (· * ·) ?_ ?_
    · show _ * Ideal.tanh (_ * Ideal.tanh _) = _
      unfold LstmReadout.hiddenRow
      refine congrArg₂ (· * ·) (congrArg Ideal.logistic ?_)
        (congrArg Ideal.tanh (congrArg₂ (· * ·) (congrArg Ideal.logistic ?_) (congrArg Ideal.tanh ?_)))
      · rw [slice2_axis1_eq]
        exact gates_entry v0 v2 v9 v13 v17 _ _ _ _ _ _ _ p _
      · rw [slice2_axis1_eq]
        exact gates_entry v0 v2 v9 v13 v17 _ _ _ _ _ _ _ p _
      · rw [slice2_axis1_eq]
        exact gates_entry v0 v2 v9 v13 v17 _ _ _ _ _ _ _ p _
    · exact weight_entry v31 _ _ (ix2 k u)
  · exact bias_entry v35 _ _ p u

end Cert.KernelBodies

end
-- ==== Proof.KernelBlocks.lean ====
/-
  From blocks to arrays.  Each of the three kernel regions walks the 100000 node rows in 50 blocks of 2000 rows; at
  point t it loads rows 2000·t … 2000·t + 1999 of its first operand, the whole of every other operand (weights and bias
  rows: their block index is always zero), and writes back rows 2000·t … of its output.  Each body is row-local, so the
  block it writes is the block of ONE whole-array function of the arrays as the region finds them; the 50 blocks tile the
  output, so after the region the output array is that function:

      region 0 :  dense x w1ᵀ
      region 1 :  dense (biasClamp agg1 b1) w2ᵀ
      region 2 :  lstmOut agg2 b2 wihᵀ bih bhh woutᵀ bout

  stated for ANY contents V of the buffers at the region's entry.
-/
import proofs.«173190_j27169963114973_1_alg».proof.Proof.Gen.KernelIdeal.Frame
import proofs.«173190_j27169963114973_1_alg».proof.Proof.KernelBodies
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps over the 50 points: the feature block and the output block move with the point, the weight block stays. -/
theorem idxIn0 : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)
theorem idxOut0 : ∀ t : Fin cfg0.N, win0_2.index t (0 : Fin 2) = t.val ∧ win0_2.index t (1 : Fin 2) = 0 :=
  (by decide +kernel : ∀ t : Fin grid0.N, _)

/-- What point t writes back is block t of the dense product of the arrays as the region finds them. -/
theorem flushed0_eq (c : Dev nD) (t : Fin cfg0.N) :
    (dat0 V c).flushed 2 t = ((cfg0.win 2).blk t).view.read (Elt Ideal)
      (dense (n := 100000) (k := 128) (c := 32) (V c main_arg0) (V c main_v31)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x32) hz]
  rw [KernelBodies.pay0_eq]
  obtain ⟨e0, e1, e2, e3⟩ := idxIn0 t
  obtain ⟨eo0, eo1⟩ := idxOut0 t
  funext j
  show dense (n := 2000) (k := 128) (c := 32) (iblk0 V c 0 t) (iblk0 V c 1 t) j
    = dense (n := 100000) (k := 128) (c := 32) (V c main_arg0) (V c main_v31) (((cfg0.win 2).blk t).view.emb j)
  refine dense_transfer _ _ _ _ j _ (fun l => ?_) (fun l => ?_)
  · show V c main_arg0 (((cfg0.win 0).blk t).view.emb (ix2 (j 0) l)) = V c main_arg0 (ix2 ((((cfg0.win 2).blk t).view.emb j) 0) l)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * l.val = l.val; omega
  · show V c main_v31 (((cfg0.win 1).blk t).view.emb (ix2 l (j 1))) = V c main_v31 (ix2 l ((((cfg0.win 2).blk t).view.emb j) 1))
    refine congrArg (V c main_v31) (funext fun a => Fin.ext ?_)
    match a with
    | ⟨0, _⟩ => show win0_1.index t (0 : Fin 2) * 128 + 1 * l.val = l.val; omega
    | ⟨1, _⟩ => show win0_1.index t (1 : Fin 2) * 32 + 1 * (j 1).val = win0_2.index t (1 : Fin 2) * 32 + 1 * (j 1).val; omega

/-- An array index is in point t's block of the output iff each coordinate is in the block's range on its axis. -/
theorem mem_blk0 (t : Fin cfg0.N) (i : S100000x32.Idx) :
    i ∈ ((cfg0.win 2).blk t).view.set ↔ ∀ a : Fin 2, win0_2.index t a * S2000x32.size a ≤ (i a).val ∧ (i a).val < win0_2.index t a * S2000x32.size a + S2000x32.size a := by
  show i ∈ ((View.whole main_v32).slice (win0_2.rect t)).set ↔ _
  rw [View.set_slice_whole, Rect.mem_set_unit]
  exact Iff.rfl

/-- Every row of the output lies in the block of the point that its row number divided by 2000 names. -/
theorem cover0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 50 := N_0
  have ht : (i 0).val / 2000 < cfg0.N := by rw [hN]; omega
  obtain ⟨eo0, eo1⟩ := idxOut0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [eo0]; show (i 0).val / 2000 * 2000 ≤ (i 0).val ∧ (i 0).val < (i 0).val / 2000 * 2000 + 2000; omega
  | ⟨1, _⟩ =>
    show win0_2.index ⟨(i 0).val / 2000, ht⟩ (1 : Fin 2) * 32 ≤ (i 1).val ∧ (i 1).val < win0_2.index ⟨(i 0).val / 2000, ht⟩ (1 : Fin 2) * 32 + 32
    rw [eo1]; omega

/-- After region 0 its output array is the dense product of the node features and the transposed weights. -/
theorem final0 (c : Dev nD) :
    (dat0 V c).arrAt 2 cfg0.N = dense (n := 100000) (k := 128) (c := 32) (V c main_arg0) (V c main_v31) :=
  (dat0 V c).arrAt_eq_of_cover 2 _ (fun t _ => flushed0_eq V c t) cover0

/-! ## Region 1 -/

theorem idxIn1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)
theorem idxOut1 : ∀ t : Fin cfg1.N, win1_3.index t (0 : Fin 2) = t.val ∧ win1_3.index t (1 : Fin 2) = 0 :=
  (by decide +kernel : ∀ t : Fin grid1.N, _)

/-- What point t writes back is block t of the second layer's projection of the arrays as the region finds them. -/
theorem flushed1_eq (c : Dev nD) (t : Fin cfg1.N) :
    (dat1 V c).flushed 3 t = ((cfg1.win 3).blk t).view.read (Elt Ideal)
      (dense (n := 100000) (k := 32) (c := 16) (biasClamp (n := 100000) (c := 32) (V c main_v45) (V c main_v47)) (V c main_v46)) := by
  show (cfg1.win 3).cut (grid1.coords t) ((dat1 V c).after 3 t) = _
  rw [after1_3]
  unfold out1_3
  rw [View.canon_unit_zero hz]
  simp only [View.ld_unit_zero (S := S2000x32) hz, View.ld_unit_zero (S := S1x32) hz, View.ld_unit_zero (S := S32x16) hz]
  rw [KernelBodies.pay1_eq]
  obtain ⟨e0, e1, e2, e3, e4, e5⟩ := idxIn1 t
  obtain ⟨eo0, eo1⟩ := idxOut1 t
  funext j
  show dense (n := 2000) (k := 32) (c := 16) (biasClamp (n := 2000) (c := 32) (iblk1 V c 0 t) (iblk1 V c 1 t)) (iblk1 V c 2 t) j
    = dense (n := 100000) (k := 32) (c := 16) (biasClamp (n := 100000) (c := 32) (V c main_v45) (V c main_v47)) (V c main_v46)
        (((cfg1.win 3).blk t).view.emb j)
  refine dense_transfer _ _ _ _ j _ (fun l => ?_) (fun l => ?_)
  · refine biasClamp_transfer _ _ _ _ (ix2 (j 0) l) (ix2 ((((cfg1.win 3).blk t).view.emb j) 0) l) ?_ ?_
    · show V c main_v45 (((cfg1.win 0).blk t).view.emb (ix2 (j 0) l)) = V c main_v45 (ix2 ((((cfg1.win 3).blk t).view.emb j) 0) l)
      refine congrArg (V c main_v45) (funext fun a => Fin.ext ?_)
      match a with
      | ⟨0, _⟩ => show win1_0.index t (0 : Fin 2) * 2000 + 1 * (j 0).val = win1_3.index t (0 : Fin 2) * 2000 + 1 * (j 0).val; omega
      | ⟨1, _⟩ => show win1_0.index t (1 : Fin 2) * 32 + 1 * l.val = l.val; omega
    · show V c main_v47 (((cfg1.win 1).blk t).view.emb (ix2 0 l)) = V c main_v47 (ix2 0 l)
      refine congrArg (V c main_v47) (funext fun a => Fin.ext ?_)
      match a with
      | ⟨0, _⟩ => show win1_1.index t (0 : Fin 2) * 1 + 1 * 0 = 0; omega
      | ⟨1, _⟩ => show win1_1.index t (1 : Fin 2) * 32 + 1 * l.val = l.val; omega
  · show V c main_v46 (((cfg1.win 2).blk t).view.emb (ix2 l (j 1))) = V c main_v46 (ix2 l ((((cfg1.win 3).blk t).view.emb j) 1))
    refine congrArg (V c main_v46) (funext fun a => Fin.ext ?_)
    match a with
    | ⟨0, _⟩ => show win1_2.index t (0 : Fin 2) * 32 + 1 * l.val = l.val; omega
    | ⟨1, _⟩ => show win1_2.index t (1 : Fin 2) * 16 + 1 * (j 1).val = win1_3.index t (1 : Fin 2) * 16 + 1 * (j 1).val; omega

/-- An array index is in point t's block of the output iff each coordinate is in the block's range on its axis. -/
theorem mem_blk1 (t : Fin cfg1.N) (i : S100000x16.Idx) :
    i ∈ ((cfg1.win 3).blk t).view.set ↔ ∀ a : Fin 2, win1_3.index t a * S2000x16.size a ≤ (i a).val ∧ (i a).val < win1_3.index t a * S2000x16.size a + S2000x16.size a := by
  show i ∈ ((View.whole main_v48).slice (win1_3.rect t)).set ↔ _
  rw [View.set_slice_whole, Rect.mem_set_unit]
  exact Iff.rfl

/-- Every row of the output lies in the block of the point that its row number divided by 2000 names. -/
theorem cover1 (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 50 := N_1
  have ht : (i 0).val / 2000 < cfg1.N := by rw [hN]; omega
  obtain ⟨eo0, eo1⟩ := idxOut1 ⟨(i 0).val / 2000, ht⟩
  refine ⟨⟨(i 0).val / 2000, ht⟩, flush1_3 _, ?_⟩
  rw [mem_blk1]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [eo0]; show (i 0).val / 2000 * 2000 ≤ (i 0).val ∧ (i 0).val < (i 0).val / 2000 * 2000 + 2000; omega
  | ⟨1, _⟩ =>
    show win1_3.index ⟨(i 0).val / 2000, ht⟩ (1 : Fin 2) * 16 ≤ (i 1).val ∧ (i 1).val < win1_3.index ⟨(i 0).val / 2000, ht⟩ (1 : Fin 2) * 16 + 16
    rw [eo1]; omega

/-- After region 1 its output array is the second layer's projection of the clamped, biased first aggregation. -/
theorem final1 (c : Dev nD) :
    (dat1 V c).arrAt 3 cfg1.N
      = dense (n := 100000) (k := 32) (c := 16) (biasClamp (n := 100000) (c := 32) (V c main_v45) (V c main_v47)) (V c main_v46) :=
  (dat1 V c).arrAt_eq_of_cover 3 _ (fun t _ => flushed1_eq V c t) cover1

/-! ## Region 2 -/

theorem idxIn2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)
theorem idxOut2 : ∀ t : Fin cfg2.N, win2_7.index t (0 : Fin 2) = t.val ∧ win2_7.index t (1 : Fin 2) = 0 :=
  (by decide +kernel : ∀ t : Fin grid2.N, _)

/-- A window whose block index is always zero and whose block is the whole array stages the array itself. -/
theorem small2_1 (c : Dev nD) (t : Fin cfg2.N) : (iblk2 V c 1 t : S1x16.Idx → EReal) = V c main_v64 := by
  obtain ⟨-, -, e2, e3, -⟩ := idxIn2 t
  funext y
  show V c main_v64 (((cfg2.win 1).blk t).view.emb y) = V c main_v64 y
  refine congrArg (V c main_v64) (funext fun a => Fin.ext ?_)
  match a with
  | ⟨0, _⟩ => show win2_1.index t (0 : Fin 2) * 1 + 1 * (y 0).val = (y 0).val; omega
  | ⟨1, _⟩ => show win2_1.index t (1 : Fin 2) * 16 + 1 * (y 1).val = (y 1).val; omega
theorem small2_2 (c : Dev nD) (t : Fin cfg2.N) : (iblk2 V c 2 t : S16x32.Idx → EReal) = V c main_v62 := by
  obtain ⟨-, -, -, -, e4, e5, -⟩ := idxIn2 t
  funext y
  show V c main_v62 (((cfg2.win 2).blk t).view.emb y) = V c main_v62 y
  refine congrArg (V c main_v62) (funext fun a => Fin.ext ?_)
  match a with
  | ⟨0, _⟩ => show win2_2.index t (0 : Fin 2) * 16 + 1 * (y 0).val = (y 0).val; omega
  | ⟨1, _⟩ => show win2_2.index t (1 : Fin 2) * 32 + 1 * (y 1).val = (y 1).val; omega
theorem small2_3 (c : Dev nD) (t : Fin cfg2.N) : (iblk2 V c 3 t : S1x32.Idx → EReal) = V c main_v65 := by
  obtain ⟨-, -, -, -, -, -, e6, e7, -⟩ := idxIn2 t
  funext y
  show V c main_v65 (((cfg2.win 3).blk t).view.emb y) = V c main_v65 y
  refine congrArg (V c main_v65) (funext fun a => Fin.ext ?_)
  match a with
  | ⟨0, _⟩ => show win2_3.index t (0 : Fin 2) * 1 + 1 * (y 0).val = (y 0).val; omega
  | ⟨1, _⟩ => show win2_3.index t (1 : Fin 2) * 32 + 1 * (y 1).val = (y 1).val; omega
theorem small2_4 (c : Dev nD) (t : Fin cfg2.N) : (iblk2 V c 4 t : S1x32.Idx → EReal) = V c main_v66 := by
  obtain ⟨-, -, -, -, -, -, -, -, e8, e9, -⟩ := idxIn2 t
  funext y
  show V c main_v66 (((cfg2.win 4).blk t).view.emb y) = V c main_v66 y
  refine congrArg (V c main_v66) (funext fun a => Fin.ext ?_)
  match a with
  | ⟨0, _⟩ => show win2_4.index t (0 : Fin 2) * 1 + 1 * (y 0).val = (y 0).val; omega
  | ⟨1, _⟩ => show win2_4.index t (1 : Fin 2) * 32 + 1 * (y 1).val = (y 1).val; omega
theorem small2_5 (c : Dev nD) (t : Fin cfg2.N) : (iblk2 V c 5 t : S8x1.Idx → EReal) = V c main_v63 := by
  obtain ⟨-, -, -, -, -, -, -, -, -, -, e10, e11, -⟩ := idxIn2 t
  funext y
  show V c main_v63 (((cfg2.win 5).blk t).view.emb y) = V c main_v63 y
  refine congrArg (V c main_v63) (funext fun a => Fin.ext ?_)
  match a with
  | ⟨0, _⟩ => show win2_5.index t (0 : Fin 2) * 8 + 1 * (y 0).val = (y 0).val; omega
  | ⟨1, _⟩ => show win2_5.index t (1 : Fin 2) * 1 + 1 * (y 1).val = (y 1).val; omega
theorem small2_6 (c : Dev nD) (t : Fin cfg2.N) : (iblk2 V c 6 t : S1x1.Idx → EReal) = V c main_v67 := by
  obtain ⟨-, -, -, -, -, -, -, -, -, -, -, -, e12, e13⟩ := idxIn2 t
  funext y
  show V c main_v67 (((cfg2.win 6).blk t).view.emb y) = V c main_v67 y
  refine congrArg (V c main_v67) (funext fun a => Fin.ext ?_)
  match a with
  | ⟨0, _⟩ => show win2_6.index t (0 : Fin 2) * 1 + 1 * (y 0).val = (y 0).val; omega
  | ⟨1, _⟩ => show win2_6.index t (1 : Fin 2) * 1 + 1 * (y 1).val = (y 1).val; omega

set_option maxHeartbeats 2000000 in
/-- What point t writes back is block t of the last stage of the arrays as the region finds them. -/
theorem flushed2_eq (c : Dev nD) (t : Fin cfg2.N) :
    (dat2 V c).flushed 7 t = ((cfg2.win 7).blk t).view.read (Elt Ideal)
      (LstmReadout.lstmOut (n := 100000) (V c main_v61) (V c main_v64) (V c main_v62) (V c main_v65) (V c main_v66) (V c main_v63) (V c main_v67)) := by
  show (cfg2.win 7).cut (grid2.coords t) ((dat2 V c).after 7 t) = _
  rw [after2_7]
  unfold out2_7
  rw [View.canon_unit_zero hz]
  simp only [View.ld_unit_zero (S := S2000x16) hz, View.ld_unit_zero (S := S1x16) hz, View.ld_unit_zero (S := S16x32) hz,
    View.ld_unit_zero (S := S1x32) hz, View.ld_unit_zero (S := S8x1) hz, View.ld_unit_zero (S := S1x1) hz]
  rw [KernelBodies.pay2_eq, small2_1 V c t, small2_2 V c t, small2_3 V c t, small2_4 V c t, small2_5 V c t, small2_6 V c t]
  obtain ⟨e0, e1, -⟩ := idxIn2 t
  obtain ⟨eo0, eo1⟩ := idxOut2 t
  funext j
  show LstmReadout.lstmOut (n := 2000) (iblk2 V c 0 t) (V c main_v64) (V c main_v62) (V c main_v65) (V c main_v66) (V c main_v63) (V c main_v67) j
    = LstmReadout.lstmOut (n := 100000) (V c main_v61) (V c main_v64) (V c main_v62) (V c main_v65) (V c main_v66) (V c main_v63) (V c main_v67)
        (((cfg2.win 7).blk t).view.emb j)
  refine LstmReadout.lstmOut_transfer _ _ _ _ _ _ _ _ j _ (fun l => ?_) ?_
  · show V c main_v61 (((cfg2.win 0).blk t).view.emb (ix2 (j 0) l)) = V c main_v61 (ix2 ((((cfg2.win 7).blk t).view.emb j) 0) l)
    refine congrArg (V c main_v61) (funext fun a => Fin.ext ?_)
    match a with
    | ⟨0, _⟩ => show win2_0.index t (0 : Fin 2) * 2000 + 1 * (j 0).val = win2_7.index t (0 : Fin 2) * 2000 + 1 * (j 0).val; omega
    | ⟨1, _⟩ => show win2_0.index t (1 : Fin 2) * 16 + 1 * l.val = l.val; omega
  · exact Subsingleton.elim (α := Fin 1) _ _

/-- An array index is in point t's block of the output iff each coordinate is in the block's range on its axis. -/
theorem mem_blk2 (t : Fin cfg2.N) (i : S100000x1.Idx) :
    i ∈ ((cfg2.win 7).blk t).view.set ↔ ∀ a : Fin 2, win2_7.index t a * S2000x1.size a ≤ (i a).val ∧ (i a).val < win2_7.index t a * S2000x1.size a + S2000x1.size a := by
  show i ∈ ((View.whole main_v68).slice (win2_7.rect t)).set ↔ _
  rw [View.set_slice_whole, Rect.mem_set_unit]
  exact Iff.rfl

/-- Every row of the output lies in the block of the point that its row number divided by 2000 names. -/
theorem cover2 (i : S100000x1.Idx) :
    ∃ t : Fin cfg2.N, (cfg2.win 7).flush t = true ∧ i ∈ ((cfg2.win 7).blk t).view.set := by
  have hi0 : (i 0).val < 100000 := (i 0).isLt
  have hi1 : (i 1).val < 1 := (i 1).isLt
  have hN : cfg2.N = 50 := N_2
  have ht : (i 0).val / 2000 < cfg2.N := by rw [hN]; omega
  obtain ⟨eo0, eo1⟩ := idxOut2 ⟨(i 0).val / 2000, ht⟩
  refine ⟨⟨(i 0).val / 2000, ht⟩, flush2_7 _, ?_⟩
  rw [mem_blk2]
  intro a
  match a with
  | ⟨0, _⟩ =>
    show win2_7.index ⟨(i 0).val / 2000, ht⟩ (0 : Fin 2) * 2000 ≤ (i 0).val ∧ (i 0).val < win2_7.index ⟨(i 0).val / 2000, ht⟩ (0 : Fin 2) * 2000 + 2000
    rw [eo0]; show (i 0).val / 2000 * 2000 ≤ (i 0).val ∧ (i 0).val < (i 0).val / 2000 * 2000 + 2000; omega
  | ⟨1, _⟩ =>
    show win2_7.index ⟨(i 0).val / 2000, ht⟩ (1 : Fin 2) * 1 ≤ (i 1).val ∧ (i 1).val < win2_7.index ⟨(i 0).val / 2000, ht⟩ (1 : Fin 2) * 1 + 1
    rw [eo1]; omega

/-- After region 2 its output array is the LSTM step and readout of the clamped, biased second aggregation. -/
theorem final2 (c : Dev nD) :
    (dat2 V c).arrAt 7 cfg2.N
      = LstmReadout.lstmOut (n := 100000) (V c main_v61) (V c main_v64) (V c main_v62) (V c main_v65) (V c main_v66) (V c main_v63) (V c main_v67) :=
  (dat2 V c).arrAt_eq_of_cover 7 _ (fun t _ => flushed2_eq V c t) cover2

end Cert.KernelIdeal.Blocks

end
-- ==== Proof.LibTRefRoundTrip.lean ====
/-
  A reusable lemma: a value carried to a buffer's own type and back.

  The operations of an outlined function (a reference's relu, log_softmax, …) name their buffers through typed
  references; a value of the stated type is carried to the buffer's own type when written and carried back when read.
  The two transports are along one equation of buffer types and its reverse, so together they are the identity —
  whatever the reference, and without looking the buffer's type up: substitute the equation.
-/
import Idealize.ShloMosaic.Lib.StableHlo

noncomputable section

namespace Cert.TRefRoundTrip

open Idealize.ShloMosaic Idealize.ShloMosaic.StableHlo

/-- Contents carried to a buffer's own type and back are the contents. -/
theorem ofBuf_toBuf {sg : RefSig} {T : BufTy} {Val : EltTy → Type} (x : TRef sg T) (v : T.Contents Val) :
    x.ofBuf (x.toBuf v) = v := by
  obtain ⟨r, h, h1, h2⟩ := x
  subst h
  rfl

end Cert.TRefRoundTrip

end
-- ==== Proof.HostGlue.lean ====
/-
  The kernel program's host operations between its three regions, read against the reference's stages.

  The buffer contents at the boundaries of the kernel program are a fold from the launch memory.  Walking that fold:
  every buffer a region reads is, in terms of the arguments, what the reference computes at the matching place —

    * the edge list's source and target index vectors (with the self-loops appended) and the edge scales 1/sqrt(deg·deg)
      are computed once, before the first region, by the very operations the reference uses, and no later operation or
      region writes them;
    * a transposed weight matrix is the reference's transposed weight matrix; a bias vector reshaped to one row is the
      reference's bias vector broadcast to one row;
    * the array a later region reads as its first operand is the neighbourhood sum (RefStages.agg32 / agg16) of the array the
      region before it wrote.

  With the three regions' whole-array results (KernelBlocks) this gives the result buffer after the run as ONE function
  of the arguments, the same composition the reference's stages form.
-/
import proofs.«173190_j27169963114973_1_alg».proof.Proof.Gen.KernelIdeal.Frame
import proofs.«173190_j27169963114973_1_alg».proof.Proof.KernelBlocks
import proofs.«173190_j27169963114973_1_alg».proof.Proof.Network
import proofs.«173190_j27169963114973_1_alg».proof.Proof.LibTRefRoundTrip
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo
open Cert.ReferenceIdeal.ReadP (val_main_v3 val_main_v7 val_main_v13 val_main_v14 val_main_v15 val_main_cst_2 val_main_v30 val_main_v31 val_main_v46 val_main_v50 val_main_v65 val_main_v69
  val_main_v71 val_main_v74 val_main_v97 val_main_v99)
open Cert.RefStages (agg32 agg16)
open Cert.Gcn (dense biasClamp)

variable (m : (ℓ : Loc nD τ sig) → Buf (Elt Ideal) ℓ) (ρ : Dev nD → PrngReg) (c : Dev nD)

/-! ## Values carried between a buffer's own type and a stated type -/

/-- Contents read back at a stated type are the contents, when the two are the same value up to the type's spelling. -/
theorem ofBuf_of_heq {sg : RefSig} {T : BufTy} {Val : EltTy → Type} (x : TRef sg T) (v : x.ref.ty.Contents Val)
    (v' : T.Contents Val) (h : HEq v v') : x.ofBuf v = v' :=
  eq_of_heq ((cast_heq _ v).trans h)

/-- Contents written at a buffer's own type are the contents. -/
theorem toBuf_of_heq {sg : RefSig} {T : BufTy} {Val : EltTy → Type} (x : TRef sg T) (v : T.Contents Val)
    (v' : x.ref.ty.Contents Val) (h : HEq v v') : x.toBuf v = v' :=
  eq_of_heq ((cast_heq _ v).trans h)

/-! ## Before the first region -/

theorem W3_arg0 : W3 m ρ c (Proc.devRef .tc main_arg0) = m ((c : Thread nD τ).loc main_arg0) := by
  show after hostOps0_2 (after hostOps0_1 (after hostOps0 (W0 m ρ c))) (Proc.devRef .tc main_arg0) = _
  after_results_simp
theorem W3_arg3 : W3 m ρ c (Proc.devRef .tc main_arg3) = m ((c : Thread nD τ).loc main_arg3) := by
  show after hostOps0_2 (after hostOps0_1 (after hostOps0 (W0 m ρ c))) (Proc.devRef .tc main_arg3) = _
  after_results_simp
theorem W3_arg4 : W3 m ρ c (Proc.devRef .tc main_arg4) = m ((c : Thread nD τ).loc main_arg4) := by
  show after hostOps0_2 (after hostOps0_1 (after hostOps0 (W0 m ρ c))) (Proc.devRef .tc main_arg4) = _
  after_results_simp
theorem W3_arg5 : W3 m ρ c (Proc.devRef .tc main_arg5) = m ((c : Thread nD τ).loc main_arg5) := by
  show after hostOps0_2 (after hostOps0_1 (after hostOps0 (W0 m ρ c))) (Proc.devRef .tc main_arg5) = _
  after_results_simp
theorem W3_arg6 : W3 m ρ c (Proc.devRef .tc main_arg6) = m ((c : Thread nD τ).loc main_arg6) := by
  show after hostOps0_2 (after hostOps0_1 (after hostOps0 (W0 m ρ c))) (Proc.devRef .tc main_arg6) = _
  after_results_simp
theorem W3_arg8 : W3 m ρ c (Proc.devRef .tc main_arg8) = m ((c : Thread nD τ).loc main_arg8) := by
  show after hostOps0_2 (after hostOps0_1 (after hostOps0 (W0 m ρ c))) (Proc.devRef .tc main_arg8) = _
  after_results_simp
theorem W3_arg9 : W3 m ρ c (Proc.devRef .tc main_arg9) = m ((c : Thread nD τ).loc main_arg9) := by
  show after hostOps0_2 (after hostOps0_1 (after hostOps0 (W0 m ρ c))) (Proc.devRef .tc main_arg9) = _
  after_results_simp
theorem W3_arg10 : W3 m ρ c (Proc.devRef .tc main_arg10) = m ((c : Thread nD τ).loc main_arg10) := by
  show after hostOps0_2 (after hostOps0_1 (after hostOps0 (W0 m ρ c))) (Proc.devRef .tc main_arg10) = _
  after_results_simp
theorem W3_arg11 : W3 m ρ c (Proc.devRef .tc main_arg11) = m ((c : Thread nD τ).loc main_arg11) := by
  show after hostOps0_2 (after hostOps0_1 (after hostOps0 (W0 m ρ c))) (Proc.devRef .tc main_arg11) = _
  after_results_simp

/-- The source index vector: the edge list's first row with the node numbers appended. -/
theorem W3_v3 : W3 m ρ c (Proc.devRef .tc main_v3) = val_main_v3 (F := Ideal) (m ((c : Thread nD τ).loc main_arg1)) := by
  show after hostOps0_2 (after hostOps0_1 (after hostOps0 (W0 m ρ c))) (Proc.devRef .tc main_v3) = _
  after_results_simp
  rfl
/-- The target index vector. -/
theorem W3_v7 : W3 m ρ c (Proc.devRef .tc main_v7) = val_main_v7 (F := Ideal) (m ((c : Thread nD τ).loc main_arg1)) := by
  show after hostOps0_2 (after hostOps0_1 (after hostOps0 (W0 m ρ c))) (Proc.devRef .tc main_v7) = _
  after_results_simp
  rfl
/-- The degree comparison and the reciprocal square root of the degrees, after the first stretch of host operations. -/
theorem W1_v13 : W1 m ρ c (Proc.devRef .tc main_v13) = val_main_v13 (F := Ideal) (m ((c : Thread nD τ).loc main_arg1)) := by
  show after hostOps0 (W0 m ρ c) (Proc.devRef .tc main_v13) = _
  after_results_simp
  rfl
theorem W1_v14 : W1 m ρ c (Proc.devRef .tc main_v14) = val_main_v14 (F := Ideal) (m ((c : Thread nD τ).loc main_arg1)) := by
  show after hostOps0 (W0 m ρ c) (Proc.devRef .tc main_v14) = _
  after_results_simp
  rfl
theorem W1_cst_2 : W1 m ρ c (Proc.devRef .tc main_cst_2) = val_main_cst_2 (F := Ideal) := by
  show after hostOps0 (W0 m ρ c) (Proc.devRef .tc main_cst_2) = _
  after_results_simp
  rfl
theorem W1_v3 : W1 m ρ c (Proc.devRef .tc main_v3) = val_main_v3 (F := Ideal) (m ((c : Thread nD τ).loc main_arg1)) := by
  show after hostOps0 (W0 m ρ c) (Proc.devRef .tc main_v3) = _
  after_results_simp
  rfl
theorem W1_v7 : W1 m ρ c (Proc.devRef .tc main_v7) = val_main_v7 (F := Ideal) (m ((c : Thread nD τ).loc main_arg1)) := by
  show after hostOps0 (W0 m ρ c) (Proc.devRef .tc main_v7) = _
  after_results_simp
  rfl

/-- The node scales: the reciprocal square root of the degree where the degree is positive, zero elsewhere. -/
theorem W2_v15 : W2 m ρ c (Proc.devRef .tc main_v15) = val_main_v15 (F := Ideal) (m ((c : Thread nD τ).loc main_arg1)) := by
  have h13 := W1_v13 m ρ c
  have h14 := W1_v14 m ρ c
  have hc := W1_cst_2 m ρ c
  show after hostOps0_1 (W1 m ρ c) (Proc.devRef .tc main_v15) = _
  revert h13 h14 hc
  generalize W1 m ρ c = Wx
  intro h13 h14 hc
  after_results_simp
  rw [h13, h14, hc]
  have e13 : (TRef.of main_v13 : TRef sig ⟨S100000, .i1⟩).ofBuf (val_main_v13 (F := Ideal) (m ((c : Thread nD τ).loc main_arg1)))
      = val_main_v13 (F := Ideal) (m ((c : Thread nD τ).loc main_arg1)) := ofBuf_of_heq _ _ _ HEq.rfl
  have e14 : (TRef.of main_v14 : TRef sig ⟨S100000, .f32⟩).ofBuf (val_main_v14 (F := Ideal) (m ((c : Thread nD τ).loc main_arg1)))
      = val_main_v14 (F := Ideal) (m ((c : Thread nD τ).loc main_arg1)) := ofBuf_of_heq _ _ _ HEq.rfl
  have ec : (TRef.of main_cst_2 : TRef sig ⟨S_, .f32⟩).ofBuf (val_main_cst_2 (F := Ideal)) = val_main_cst_2 (F := Ideal) :=
    ofBuf_of_heq _ _ _ HEq.rfl
  rw [TRefRoundTrip.ofBuf_toBuf, TRefRoundTrip.ofBuf_toBuf, e13, e14, ec]
  refine toBuf_of_heq _ _ _ (heq_of_eq ?_)
  unfold val_main_v15 Cert.ReferenceIdeal.ReadP.val_main_call0_v1 Cert.ReferenceIdeal.ReadP.val_main_call0_v0
  rfl
theorem W2_v3 : W2 m ρ c (Proc.devRef .tc main_v3) = val_main_v3 (F := Ideal) (m ((c : Thread nD τ).loc main_arg1)) := by
  have h := W1_v3 m ρ c
  show after hostOps0_1 (W1 m ρ c) (Proc.devRef .tc main_v3) = _
  revert h
  generalize W1 m ρ c = Wx
  intro h
  after_results_simp
  exact h
theorem W2_v7 : W2 m ρ c (Proc.devRef .tc main_v7) = val_main_v7 (F := Ideal) (m ((c : Thread nD τ).loc main_arg1)) := by
  have h := W1_v7 m ρ c
  show after hostOps0_1 (W1 m ρ c) (Proc.devRef .tc main_v7) = _
  revert h
  generalize W1 m ρ c = Wx
  intro h
  after_results_simp
  exact h

/-- The edge scales: the product of the two end nodes' scales. -/
theorem W3_v30 : W3 m ρ c (Proc.devRef .tc main_v30) = val_main_v30 (F := Ideal) (m ((c : Thread nD τ).loc main_arg1)) := by
  have h15 := W2_v15 m ρ c
  have h3 := W2_v3 m ρ c
  have h7 := W2_v7 m ρ c
  show after hostOps0_2 (W2 m ρ c) (Proc.devRef .tc main_v30) = _
  revert h15 h3 h7
  generalize W2 m ρ c = Wx
  intro h15 h3 h7
  after_results_simp
  rw [h15, h3, h7]
  rfl
/-- The first weight matrix, transposed. -/
theorem W3_v31 : W3 m ρ c (Proc.devRef .tc main_v31) = val_main_v31 (F := Ideal) (m ((c : Thread nD τ).loc main_arg2)) := by
  show after hostOps0_2 (after hostOps0_1 (after hostOps0 (W0 m ρ c))) (Proc.devRef .tc main_v31) = _
  after_results_simp
  rfl

/-! ## After the first region: its output is the dense product; nothing else moved -/

theorem W4_v32 : W4 m ρ c (Proc.devRef .tc main_v32)
    = dense (n := 100000) (k := 128) (c := 32) (m ((c : Thread nD τ).loc main_arg0)) (val_main_v31 (F := Ideal) (m ((c : Thread nD τ).loc main_arg2))) := by
  refine (W4_arr m ρ c 2).trans ((Blocks.final0 (V3 m ρ) c).trans ?_)
  show dense (n := 100000) (k := 128) (c := 32) (W3 m ρ c (Proc.devRef .tc main_arg0)) (W3 m ρ c (Proc.devRef .tc main_v31)) = _
  rw [W3_arg0, W3_v31]

theorem W4_v3 : W4 m ρ c (Proc.devRef .tc main_v3) = val_main_v3 (F := Ideal) (m ((c : Thread nD τ).loc main_arg1)) :=
  (W4_of_ne m ρ c main_v3 (by decide)).trans (W3_v3 m ρ c)
theorem W4_v7 : W4 m ρ c (Proc.devRef .tc main_v7) = val_main_v7 (F := Ideal) (m ((c : Thread nD τ).loc main_arg1)) :=
  (W4_of_ne m ρ c main_v7 (by decide)).trans (W3_v7 m ρ c)
theorem W4_v30 : W4 m ρ c (Proc.devRef .tc main_v30) = val_main_v30 (F := Ideal) (m ((c : Thread nD τ).loc main_arg1)) :=
  (W4_of_ne m ρ c main_v30 (by decide)).trans (W3_v30 m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)

/-! ## At the second region's entry -/

/-- Its first operand is the neighbourhood sum of the first region's output. -/
theorem V5_v45 : V5 m ρ c main_v45 = agg32 (W4 m ρ c (Proc.devRef .tc main_v32)) (m ((c : Thread nD τ).loc main_arg1)) := by
  show after hostOps1 (W4 m ρ c) (Proc.devRef .tc main_v45) = _
  after_results_simp
  rw [W4_v3, W4_v7, W4_v30]
  rfl
/-- The first bias vector as one row. -/
theorem V5_v47 : V5 m ρ c main_v47 = val_main_v46 (F := Ideal) (m ((c : Thread nD τ).loc main_arg3)) := by
  show after hostOps1 (W4 m ρ c) (Proc.devRef .tc main_v47) = _
  after_results_simp
  rw [W4_arg3]
  exact RefStages.row_forms (c := 32) _ _ _
/-- The second weight matrix, transposed. -/
theorem V5_v46 : V5 m ρ c main_v46 = val_main_v50 (F := Ideal) (m ((c : Thread nD τ).loc main_arg4)) := by
  show after hostOps1 (W4 m ρ c) (Proc.devRef .tc main_v46) = _
  after_results_simp
  rw [W4_arg4]
  rfl

/-! ## After the second region -/

theorem W6_v48 : W6 m ρ c (Proc.devRef .tc main_v48)
    = dense (n := 100000) (k := 32) (c := 16)
        (biasClamp (n := 100000) (c := 32)
          (agg32 (dense (n := 100000) (k := 128) (c := 32) (m ((c : Thread nD τ).loc main_arg0)) (val_main_v31 (F := Ideal) (m ((c : Thread nD τ).loc main_arg2)))) (m ((c : Thread nD τ).loc main_arg1)))
          (val_main_v46 (F := Ideal) (m ((c : Thread nD τ).loc main_arg3))))
        (val_main_v50 (F := Ideal) (m ((c : Thread nD τ).loc main_arg4))) := by
  refine (W6_arr m ρ c 3).trans ((Blocks.final1 (V5 m ρ) c).trans ?_)
  rw [V5_v45, V5_v47, V5_v46, W4_v32]

theorem W6_v3 : W6 m ρ c (Proc.devRef .tc main_v3) = val_main_v3 (F := Ideal) (m ((c : Thread nD τ).loc main_arg1)) := by
  rw [W6_of_ne m ρ c main_v3 (by decide)]
  show after hostOps1 (W4 m ρ c) (Proc.devRef .tc main_v3) = _
  after_results_simp
  exact W4_v3 m ρ c
theorem W6_v7 : W6 m ρ c (Proc.devRef .tc main_v7) = val_main_v7 (F := Ideal) (m ((c : Thread nD τ).loc main_arg1)) := by
  rw [W6_of_ne m ρ c main_v7 (by decide)]
  show after hostOps1 (W4 m ρ c) (Proc.devRef .tc main_v7) = _
  after_results_simp
  exact W4_v7 m ρ c
theorem W6_v30 : W6 m ρ c (Proc.devRef .tc main_v30) = val_main_v30 (F := Ideal) (m ((c : Thread nD τ).loc main_arg1)) := by
  rw [W6_of_ne m ρ c main_v30 (by decide)]
  show after hostOps1 (W4 m ρ c) (Proc.devRef .tc main_v30) = _
  after_results_simp
  exact W4_v30 m ρ c
theorem W6_arg5 : W6 m ρ c (Proc.devRef .tc main_arg5) = m ((c : Thread nD τ).loc main_arg5) := by
  rw [W6_of_ne m ρ c main_arg5 (by decide)]
  show after hostOps1 (W4 m ρ c) (Proc.devRef .tc main_arg5) = _
  after_results_simp
  exact W4_arg5 m ρ c
theorem W6_arg6 : W6 m ρ c (Proc.devRef .tc main_arg6) = m ((c : Thread nD τ).loc main_arg6) := by
  rw [W6_of_ne m ρ c main_arg6 (by decide)]
  show after hostOps1 (W4 m ρ c) (Proc.devRef .tc main_arg6) = _
  after_results_simp
  exact W4_arg6 m ρ c
theorem W6_arg8 : W6 m ρ c (Proc.devRef .tc main_arg8) = m ((c : Thread nD τ).loc main_arg8) := by
  rw [W6_of_ne m ρ c main_arg8 (by decide)]
  show after hostOps1 (W4 m ρ c) (Proc.devRef .tc main_arg8) = _
  after_results_simp
  exact W4_arg8 m ρ c
theorem W6_arg9 : W6 m ρ c (Proc.devRef .tc main_arg9) = m ((c : Thread nD τ).loc main_arg9) := by
  rw [W6_of_ne m ρ c main_arg9 (by decide)]
  show after hostOps1 (W4 m ρ c) (Proc.devRef .tc main_arg9) = _
  after_results_simp
  exact W4_arg9 m ρ c
theorem W6_arg10 : W6 m ρ c (Proc.devRef .tc main_arg10) = m ((c : Thread nD τ).loc main_arg10) := by
  rw [W6_of_ne m ρ c main_arg10 (by decide)]
  show after hostOps1 (W4 m ρ c) (Proc.devRef .tc main_arg10) = _
  after_results_simp
  exact W4_arg10 m ρ c
theorem W6_arg11 : W6 m ρ c (Proc.devRef .tc main_arg11) = m ((c : Thread nD τ).loc main_arg11) := by
  rw [W6_of_ne m ρ c main_arg11 (by decide)]
  show after hostOps1 (W4 m ρ c) (Proc.devRef .tc main_arg11) = _
  after_results_simp
  exact W4_arg11 m ρ c

/-! ## At the third region's entry -/

/-- Its first operand is the neighbourhood sum of the second region's output. -/
theorem V7_v61 : V7 m ρ c main_v61 = agg16 (W6 m ρ c (Proc.devRef .tc main_v48)) (m ((c : Thread nD τ).loc main_arg1)) := by
  show after hostOps2 (W6 m ρ c) (Proc.devRef .tc main_v61) = _
  after_results_simp
  rw [W6_v3, W6_v7, W6_v30]
  rfl
theorem V7_v64 : V7 m ρ c main_v64 = val_main_v65 (F := Ideal) (m ((c : Thread nD τ).loc main_arg5)) := by
  show after hostOps2 (W6 m ρ c) (Proc.devRef .tc main_v64) = _
  after_results_simp
  rw [W6_arg5]
  exact RefStages.row_forms (c := 16) _ _ _
theorem V7_v62 : V7 m ρ c main_v62 = val_main_v69 (F := Ideal) (m ((c : Thread nD τ).loc main_arg6)) := by
  show after hostOps2 (W6 m ρ c) (Proc.devRef .tc main_v62) = _
  after_results_simp
  rw [W6_arg6]
  rfl
theorem V7_v65 : V7 m ρ c main_v65 = val_main_v71 (F := Ideal) (m ((c : Thread nD τ).loc main_arg8)) := by
  show after hostOps2 (W6 m ρ c) (Proc.devRef .tc main_v65) = _
  after_results_simp
  rw [W6_arg8]
  exact RefStages.row_forms (c := 32) _ _ _
theorem V7_v66 : V7 m ρ c main_v66 = val_main_v74 (F := Ideal) (m ((c : Thread nD τ).loc main_arg9)) := by
  show after hostOps2 (W6 m ρ c) (Proc.devRef .tc main_v66) = _
  after_results_simp
  rw [W6_arg9]
  exact RefStages.row_forms (c := 32) _ _ _
theorem V7_v63 : V7 m ρ c main_v63 = val_main_v97 (F := Ideal) (m ((c : Thread nD τ).loc main_arg10)) := by
  show after hostOps2 (W6 m ρ c) (Proc.devRef .tc main_v63) = _
  after_results_simp
  rw [W6_arg10]
  rfl
theorem V7_v67 : V7 m ρ c main_v67 = val_main_v99 (F := Ideal) (m ((c : Thread nD τ).loc main_arg11)) := by
  show after hostOps2 (W6 m ρ c) (Proc.devRef .tc main_v67) = _
  after_results_simp
  rw [W6_arg11]
  exact RefStages.row_forms (c := 1) _ _ _

/-! ## The result -/

/-- After the run the result buffer holds the network function of the arguments. -/
theorem result_eq : W9 m ρ c (Proc.devRef .tc main_v69)
    = Network.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) := by
  have h8 : W8 m ρ c (Proc.devRef .tc main_v68)
      = Network.beforeReshape (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) := by
    refine (W8_arr m ρ c 7).trans ((Blocks.final2 (V7 m ρ) c).trans ?_)
    rw [V7_v61, V7_v64, V7_v62, V7_v65, V7_v66, V7_v63, V7_v67, W6_v48]
    rfl
  show after hostOps3 (W8 m ρ c) (Proc.devRef .tc main_v69) = _
  after_results_simp
  rw [h8]
  rfl

end Cert.KernelIdeal.Glue

end
-- ==== Proof.lean ====
/-
  A three-layer graph network — two graph convolutions with self-loops and symmetric normalisation, then one LSTM step
  from the zero state and a linear readout — computed two ways over the extended reals.

  The reference runs everything as host operations.  The kernel program runs the three dense, per-node stages (the
  feature projection x·W1ᵀ; bias, clamp and projection by W2ᵀ; bias, clamp, gates, LSTM step and readout) as three kernel
  regions over blocks of 2000 node rows, and the neighbourhood sums between them (gather at the edges' sources, scale,
  scatter-add at their targets) as the same host operations the reference uses.

  Both results are ONE function of the arguments, Network.network:
    * each kernel region leaves in its output array a row-local whole-array function of the arrays it finds at its entry
      (KernelBodies: what a body computes on a block; KernelBlocks: the 50 blocks tile the array);
    * the host operations between the regions hand each region the neighbourhood sum of the previous region's output and
      the transposed weights and bias rows (HostGlue), the index and scale vectors being computed once from the edge list;
    * the reference's stages are the same functions entry by entry (RefStages, Network): a matrix product on the matrix
      unit into zeros and the host's dot_general are the same sum, narrowing to bf16 is the identity on extended reals, and
      the logistic function spelt 1/(1 + exp(−v)) is the logistic function.
  No step needs the inputs finite: the two sides apply the same operations in the same order, so the precondition is
  not opened.  The idealised kernel program is the kernel program's own text read over the extended reals, with nothing
  in it rewritten, so the claim that it is the kernel's idealisation is trivially true.
-/
import proofs.«173190_j27169963114973_1_alg».proof.Defs
import proofs.«173190_j27169963114973_1_alg».proof.Proof.Gen.Kernel
import proofs.«173190_j27169963114973_1_alg».proof.Proof.Gen.Kernel.Skeleton
import proofs.«173190_j27169963114973_1_alg».proof.Proof.Gen.Kernel.Launch
import proofs.«173190_j27169963114973_1_alg».proof.Proof.Gen.Kernel.Points
import proofs.«173190_j27169963114973_1_alg».proof.Proof.Gen.Kernel.Frame
import proofs.«173190_j27169963114973_1_alg».proof.Proof.Gen.KernelIdeal
import proofs.«173190_j27169963114973_1_alg».proof.Proof.Gen.KernelIdeal.Skeleton
import proofs.«173190_j27169963114973_1_alg».proof.Proof.Gen.KernelIdeal.Launch
import proofs.«173190_j27169963114973_1_alg».proof.Proof.Gen.KernelIdeal.Points
import proofs.«173190_j27169963114973_1_alg».proof.Proof.Gen.KernelIdeal.Frame
import proofs.«173190_j27169963114973_1_alg».proof.Proof.Gen.ReferenceIdeal
import proofs.«173190_j27169963114973_1_alg».proof.Proof.Gen.Pre_finite_inputs
import proofs.«173190_j27169963114973_1_alg».proof.Proof.RefRun
import proofs.«173190_j27169963114973_1_alg».proof.Proof.RefRead
import proofs.«173190_j27169963114973_1_alg».proof.Proof.Network
import proofs.«173190_j27169963114973_1_alg».proof.Proof.KernelRun
import proofs.«173190_j27169963114973_1_alg».proof.Proof.HostGlue
import Idealize.ShloMosaic.Adequacy
import Idealize.ShloMosaic.Init

noncomputable section

namespace Cert.Proof

open Idealize.ShloMosaic Idealize.SL.Sem

/-- The kernel program as printed runs, nothing faulting, its arguments unchanged. -/
theorem frame_kernel [Cert.Kernel.Facts] [Cert.Pre_finite_inputs.Facts] : Cert.frame_Kernel :=
  fun m ρ _ => Cert.Kernel.Gen.frame m ρ

/-- So does its idealisation. -/
theorem frame_kernelIdeal [Cert.KernelIdeal.Facts] [Cert.Pre_finite_inputs.Facts] : Cert.frame_KernelIdeal :=
  fun m ρ _ => Cert.KernelIdeal.Gen.frame m ρ

/-- The reference runs: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.ValueP.run (F := Ideal) m ρ)

/-- The two idealised programs end with the network function of the (agreeing) arguments in their result buffers. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Network.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Glue.result_eq m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11⟩ := hagree c
    rw [Cert.ReferenceIdeal.ReadP.val_main_v102_eq, Cert.Network.ref_value, h0, h1, h2, h3, h4, h5, h6, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
